-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S128x64 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S10000x128 : Shape := ⟨2, ![10000, 128]⟩
abbrev S100000x64 : Shape := ⟨2, ![100000, 64]⟩
abbrev S10000x64 : Shape := ⟨2, ![10000, 64]⟩
abbrev S1600000x64 : Shape := ⟨2, ![1600000, 64]⟩
abbrev S1x64 : Shape := ⟨2, ![1, 64]⟩

abbrev nBuf : Space → Nat
  | .hbm => 76
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .i32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S_, .f32⟩
  | .hbm, ⟨71, _⟩ => ⟨S100000x64, .f32⟩
  | .hbm, ⟨72, _⟩ => ⟨S1600000x1, .i32⟩
  | .hbm, ⟨73, _⟩ => ⟨S100000x64, .f32⟩
  | .hbm, ⟨74, _⟩ => ⟨S1x64, .f32⟩
  | .hbm, ⟨75, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S128x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1_0 : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_c_4 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_c_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  gather_S1600000_S1600000x1_S1600000_n_0_n_n_0_1_1_wf : GatherDims.WF S1600000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S100000x128.size a
  hwx1_3 : ∀ i : grid1.Coords, EltTy.bits .f32 = 32 ∨ (Rect.block (s := S100000x128) S10000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def comparator_i32_i32_d0 : BitVec 32 × BitVec 32 → BitVec 32 × BitVec 32 → BitVec 1 :=
  fun l r =>
    let v2 := IntOp.cmpi .slt l.1 r.1
    v2
def gather_S1600000_S1600000x1_S1600000_n_0_n_n_0_1_1 : GatherDims S1600000 S1600000x1 S1600000 where
  offsetDims := []
  collapsedSliceDims := [0]
  operandBatchingDims := []
  startIndicesBatchingDims := []
  startIndexMap := [0]
  indexVectorDim := 1
  sliceSizes := ![1]
  wf := gather_S1600000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v24) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v25) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v36) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v38) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v38) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v51) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 69
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S100000x64, .f32⟩
  | .hbm, ⟨68, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_cst : Ref sig .tc := ⟨.hbm, 46, rfl⟩
abbrev main_call1_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_call2_cst : Ref sig .tc := ⟨.hbm, 66, rfl⟩
abbrev main_call2_v0 : Ref sig .tc := ⟨.hbm, 67, rfl⟩
abbrev main_v44 : Ref sig .tc := ⟨.hbm, 68, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with every buffer named.

  The program is four pipelined regions among stretches of host operations.  Its run is the chain of those segments
  from the launch memory; after the last segment every unscoped buffer of a core holds the last boundary's contents
  (`Gen.W8`): the host stretches' results as computed, each region's arrays at what its write-backs leave, everything
  else as before.  The frame claim keeps of this only the argument arrays; here the whole valuation is kept, so that
  the result array can be read off it.
-/
import proofs.«155384_j13039520710795_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer of every core
    at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

/-- The same run, keeping the result array and the nine argument arrays. -/
theorem run_result : θ_run defs (onTc (τ := τ) (main (F := F))) ⟨m, fun _ => 0, ρ⟩ (fun r => ∀ c : Dev nD,
      r.2.mem ((c.tc : Thread nD τ).loc main_v51) = W8 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun s h c =>
      ⟨h c _ (mem_uc main_v51 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c)⟩)
    (run_all m ρ)

end Cert.KernelIdeal.Named

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.Region0.lean ====
/-
  Region 0: a dense layer with a ReLU, row block by row block.

  The region's grid has ten points; point `t` stages rows `10000 t … 10000 t + 9999` of the `[100000, 128]` input,
  the whole `[128, 128]` weight and the whole `[1, 128]` bias row, and writes back the same rows of the output.  The
  body computes `max (x · w + b) 0` on its block (a change of float format on the way into the product is the
  identity at the ideal values).  A row of a matrix product depends on that row of the left operand only, so the
  blocks are the restrictions of ONE function of the three whole arrays, `rowRelu`, and as the ten blocks tile the
  output, the output array ends holding it.
-/
import proofs.«155384_j13039520710795_2_alg».proof.Proof.Gen.KernelIdeal.Frame
import proofs.«155384_j13039520710795_2_alg».proof.Proof.LibPlainDot
import proofs.«155384_j13039520710795_2_alg».proof.Proof.LibDense
import Idealize.ShloMosaic.Lib.Pipeline.Value
import Idealize.ShloMosaic.Lib.ValueIdx
import Idealize.ShloMosaic.Lib.ValueLayout

set_option maxRecDepth 16384

noncomputable section

namespace Cert.KernelIdeal.Rows

open Cert.KernelIdeal Cert.KernelIdeal.Gen
open Idealize.ShloMosaic Idealize.ShloMosaic.TcCoe Idealize.ShloMosaic.ValueIdx Idealize.ShloMosaic.DenseLayer
open Idealize.SL.Sem
open Idealize.ShloMosaic.Pipeline (Dat Cfg Window)

/-- `max (x · w + b) 0` entry by entry, the bias given as a `[1, Q]` row. -/
def rowRelu {M K Q : ℕ} (x : (⟨2, ![M, K]⟩ : Shape).Idx → EReal) (w : (⟨2, ![K, Q]⟩ : Shape).Idx → EReal)
    (b : (⟨2, ![1, Q]⟩ : Shape).Idx → EReal) : (⟨2, ![M, Q]⟩ : Shape).Idx → EReal := fun i =>
  max (∑ k : Fin K, x (ix2 (i 0) k) * w (ix2 k (i 1)) + b (ix2 (0 : Fin 1) (i 1))) zeroWord

theorem hz : (![0, 0] : Fin 2 → Nat) = fun _ => 0 := funext fun a => by fin_cases a <;> rfl

/-- The body's stored value at row `p`, column `q` of its block. -/
theorem pay0_apply (x0 : Vec Ideal S10000x128 .f32) (x1 : Vec Ideal S128x128 .f32) (x2 : Vec Ideal S1x128 .f32)
    (p : Fin 10000) (q : Fin 128) :
    k0_pay1 x0 x1 x2 (ix2 p q)
      = max (∑ k : Fin 128, x0 (ix2 p k) * x1 (ix2 k q) + x2 (ix2 (0 : Fin 1) q)) zeroWord := by
  unfold k0_pay1
  refine (maximumf_apply _ _ _).trans ?_
  refine congrArg₂ max ?_ rfl
  refine (addf_apply _ _ _).trans ?_
  refine congrArg₂ (· + ·) ?_ ?_
  · refine (PlainDot.matmul_zero_apply dot_S10000x128_S128x128_S10000x128_1_0_0_1_n_n rfl none _ _ p q).trans ?_
    refine Finset.sum_congr rfl fun k _ => ?_
    rw [truncf_apply, truncf_apply, shapeCast_self]
  · rw [broadcastTo_1b_ab_apply, shapeCast_self]

/-- The printed index maps, decided over the ten grid points: the input block moves with the output block along the
    rows, the weight and the bias row are whole at every point. -/
theorem idx_facts0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 9 ∧ win0_3.index t (1 : Fin 2) = 0 :=
  (by decide +kernel : ∀ t : Fin grid0.N, _)

/-- Every row block of the output is some point's. -/
theorem idx_onto0 : ∀ q0 : Fin 10, ∃ t : Fin cfg0.N, win0_3.index t = ![q0.val, 0] :=
  (by decide +kernel : ∀ q0 : Fin 10, ∃ t : Fin grid0.N, win0_3.index t = ![q0.val, 0])

variable (V : (c : Dev nD) → (b : Ref sig .tc) → Buf (Elt Ideal) ((c : Thread nD τ).loc b))

/-- What point `t` writes back is block `t` of `rowRelu` of the three arrays as the region finds them. -/
theorem flushed0 (c : Dev nD) (t : Fin cfg0.N) :
    (dat0 V c).flushed 3 t
      = ((cfg0.win 3).blk t).view.read (Elt Ideal) (rowRelu (V c main_v24) (V c main_arg3) (V c main_v25)) := by
  show (cfg0.win 3).cut (grid0.coords t) ((dat0 V c).after 3 t) = _
  rw [after0_3]
  unfold out0_3
  rw [View.canon_unit_zero hz]
  simp only [View.ld_unit_zero (S := S10000x128) hz, View.ld_unit_zero (S := S128x128) hz,
    View.ld_unit_zero (S := S1x128) hz]
  obtain ⟨e0, e1, e2, e3, e4, e5, e6, e7⟩ := idx_facts0 t
  funext j
  obtain ⟨p, q, rfl⟩ : ∃ (p : Fin 10000) (q : Fin 128), j = ix2 p q := ⟨j 0, j 1, eq_ix2 j⟩
  show k0_pay1 (iblk0 V c 0 t) (iblk0 V c 1 t) (iblk0 V c 2 t) (ix2 p q)
    = rowRelu (V c main_v24) (V c main_arg3) (V c main_v25) (((cfg0.win 3).blk t).view.emb (ix2 p q))
  refine (pay0_apply (iblk0 V c 0 t) (iblk0 V c 1 t) (iblk0 V c 2 t) p q).trans ?_
  have h0 : ∀ k : Fin 128, ((cfg0.win 0).blk t).view.emb (ix2 p k)
      = ix2 ((((cfg0.win 3).blk t).view.emb (ix2 p q)) 0) k := by
    intro k; funext a; apply Fin.ext
    match a with
    | ⟨0, _⟩ => show win0_0.index t (0 : Fin 2) * 10000 + 1 * p.val = win0_3.index t (0 : Fin 2) * 10000 + 1 * p.val; omega
    | ⟨1, _⟩ => show win0_0.index t (1 : Fin 2) * 128 + 1 * k.val = k.val; omega
  have h1 : ∀ k : Fin 128, ((cfg0.win 1).blk t).view.emb (ix2 k q)
      = ix2 k ((((cfg0.win 3).blk t).view.emb (ix2 p q)) 1) := by
    intro k; funext a; apply Fin.ext
    match a with
    | ⟨0, _⟩ => show win0_1.index t (0 : Fin 2) * 128 + 1 * k.val = k.val; omega
    | ⟨1, _⟩ => show win0_1.index t (1 : Fin 2) * 128 + 1 * q.val = win0_3.index t (1 : Fin 2) * 128 + 1 * q.val; omega
  have h2 : ((cfg0.win 2).blk t).view.emb (ix2 (0 : Fin 1) q)
      = ix2 (0 : Fin 1) ((((cfg0.win 3).blk t).view.emb (ix2 p q)) 1) := by
    funext a; apply Fin.ext
    match a with
    | ⟨0, _⟩ => show win0_2.index t (0 : Fin 2) * 1 + 1 * 0 = 0; omega
    | ⟨1, _⟩ => show win0_2.index t (1 : Fin 2) * 128 + 1 * q.val = win0_3.index t (1 : Fin 2) * 128 + 1 * q.val; omega
  refine congrArg₂ max (congrArg₂ (· + ·) (Finset.sum_congr rfl fun k _ => congrArg₂ (· * ·) ?_ ?_) ?_) rfl
  · exact congrArg (V c main_v24) (h0 k)
  · exact congrArg (V c main_arg3) (h1 k)
  · exact congrArg (V c main_v25) h2

/-- An index of the output is in point `t`'s block iff each coordinate is in the block's range on its axis. -/
theorem mem_blk0 (t : Fin cfg0.N) (i : S100000x128.Idx) :
    i ∈ ((cfg0.win 3).blk t).view.set ↔ ∀ a : Fin 2, win0_3.index t a * S10000x128.size a ≤ (i a).val
      ∧ (i a).val < win0_3.index t a * S10000x128.size a + S10000x128.size a := by
  show i ∈ ((View.whole main_v26).slice (win0_3.rect t)).set ↔ _
  rw [View.set_slice_whole, Rect.mem_set_unit]
  exact Iff.rfl

/-- The ten row blocks tile the output. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto0 ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 128 ≤ (i 1).val ∧ (i 1).val < win0_3.index t (1 : Fin 2) * 128 + 128; omega

/-- The output array after the region: the dense layer of the three arrays as the region finds them. -/
theorem final0 (c : Dev nD) :
    (dat0 V c).arrAt 3 cfg0.N = rowRelu (V c main_v24) (V c main_arg3) (V c main_v25) :=
  (dat0 V c).arrAt_eq_of_cover 3 (rowRelu (V c main_v24) (V c main_arg3) (V c main_v25))
    (fun t _ => flushed0 V c t) cover0

end Cert.KernelIdeal.Rows

end
-- ==== Proof.Region1.lean ====
/-
  Region 1: the second dense layer with a ReLU, row block by row block.

  The same pipeline as region 0 on other arrays: ten points, point `t` staging rows `10000 t … 10000 t + 9999` of the
  input, the whole weight and the whole bias row, and writing back the same rows of `max (x · w + b) 0`.  The ten
  blocks are the restrictions of `rowRelu` of the whole arrays and tile the output.
-/
import proofs.«155384_j13039520710795_2_alg».proof.Proof.Region0

set_option maxRecDepth 16384

noncomputable section

namespace Cert.KernelIdeal.Rows

open Cert.KernelIdeal Cert.KernelIdeal.Gen
open Idealize.ShloMosaic Idealize.ShloMosaic.TcCoe Idealize.ShloMosaic.ValueIdx Idealize.ShloMosaic.DenseLayer
open Idealize.SL.Sem
open Idealize.ShloMosaic.Pipeline (Dat Cfg Window)

/-- The body's stored value at row `p`, column `q` of its block. -/
theorem pay1_apply (x0 : Vec Ideal S10000x128 .f32) (x1 : Vec Ideal S128x128 .f32) (x2 : Vec Ideal S1x128 .f32)
    (p : Fin 10000) (q : Fin 128) :
    k1_pay1 x0 x1 x2 (ix2 p q)
      = max (∑ k : Fin 128, x0 (ix2 p k) * x1 (ix2 k q) + x2 (ix2 (0 : Fin 1) q)) zeroWord := by
  unfold k1_pay1
  refine (maximumf_apply _ _ _).trans ?_
  refine congrArg₂ max ?_ rfl
  refine (addf_apply _ _ _).trans ?_
  refine congrArg₂ (· + ·) ?_ ?_
  · refine (PlainDot.matmul_zero_apply dot_S10000x128_S128x128_S10000x128_1_0_0_1_n_n rfl none _ _ p q).trans ?_
    refine Finset.sum_congr rfl fun k _ => ?_
    rw [truncf_apply, truncf_apply, shapeCast_self]
  · rw [broadcastTo_1b_ab_apply, shapeCast_self]

/-- The printed index maps, decided over the ten grid points: the input block moves with the output block along the
    rows, the weight and the bias row are whole at every point. -/
theorem idx_facts1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 9 ∧ win1_3.index t (1 : Fin 2) = 0 :=
  (by decide +kernel : ∀ t : Fin grid1.N, _)

/-- Every row block of the output is some point's. -/
theorem idx_onto1 : ∀ q0 : Fin 10, ∃ t : Fin cfg1.N, win1_3.index t = ![q0.val, 0] :=
  (by decide +kernel : ∀ q0 : Fin 10, ∃ t : Fin grid1.N, win1_3.index t = ![q0.val, 0])

variable (V : (c : Dev nD) → (b : Ref sig .tc) → Buf (Elt Ideal) ((c : Thread nD τ).loc b))

/-- What point `t` writes back is block `t` of `rowRelu` of the three arrays as the region finds them. -/
theorem flushed1 (c : Dev nD) (t : Fin cfg1.N) :
    (dat1 V c).flushed 3 t
      = ((cfg1.win 3).blk t).view.read (Elt Ideal) (rowRelu (V c main_v36) (V c main_arg5) (V c main_v37)) := by
  show (cfg1.win 3).cut (grid1.coords t) ((dat1 V c).after 3 t) = _
  rw [after1_3]
  unfold out1_3
  rw [View.canon_unit_zero hz]
  simp only [View.ld_unit_zero (S := S10000x128) hz, View.ld_unit_zero (S := S128x128) hz,
    View.ld_unit_zero (S := S1x128) hz]
  obtain ⟨e0, e1, e2, e3, e4, e5, e6, e7⟩ := idx_facts1 t
  funext j
  obtain ⟨p, q, rfl⟩ : ∃ (p : Fin 10000) (q : Fin 128), j = ix2 p q := ⟨j 0, j 1, eq_ix2 j⟩
  show k1_pay1 (iblk1 V c 0 t) (iblk1 V c 1 t) (iblk1 V c 2 t) (ix2 p q)
    = rowRelu (V c main_v36) (V c main_arg5) (V c main_v37) (((cfg1.win 3).blk t).view.emb (ix2 p q))
  refine (pay1_apply (iblk1 V c 0 t) (iblk1 V c 1 t) (iblk1 V c 2 t) p q).trans ?_
  have h0 : ∀ k : Fin 128, ((cfg1.win 0).blk t).view.emb (ix2 p k)
      = ix2 ((((cfg1.win 3).blk t).view.emb (ix2 p q)) 0) k := by
    intro k; funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 128 + 1 * k.val = k.val; omega
  have h1 : ∀ k : Fin 128, ((cfg1.win 1).blk t).view.emb (ix2 k q)
      = ix2 k ((((cfg1.win 3).blk t).view.emb (ix2 p q)) 1) := by
    intro k; funext a; apply Fin.ext
    match a with
    | ⟨0, _⟩ => show win1_1.index t (0 : Fin 2) * 128 + 1 * k.val = k.val; omega
    | ⟨1, _⟩ => show win1_1.index t (1 : Fin 2) * 128 + 1 * q.val = win1_3.index t (1 : Fin 2) * 128 + 1 * q.val; omega
  have h2 : ((cfg1.win 2).blk t).view.emb (ix2 (0 : Fin 1) q)
      = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega
  refine congrArg₂ max (congrArg₂ (· + ·) (Finset.sum_congr rfl fun k _ => congrArg₂ (· * ·) ?_ ?_) ?_) rfl
  · exact congrArg (V c main_v36) (h0 k)
  · exact congrArg (V c main_arg5) (h1 k)
  · exact congrArg (V c main_v37) h2

/-- An index of the output is in point `t`'s block iff each coordinate is in the block's range on its axis. -/
theorem mem_blk1 (t : Fin cfg1.N) (i : S100000x128.Idx) :
    i ∈ ((cfg1.win 3).blk t).view.set ↔ ∀ a : Fin 2, win1_3.index t a * S10000x128.size a ≤ (i a).val
      ∧ (i a).val < win1_3.index t a * S10000x128.size a + S10000x128.size a := by
  show i ∈ ((View.whole main_v38).slice (win1_3.rect t)).set ↔ _
  rw [View.set_slice_whole, Rect.mem_set_unit]
  exact Iff.rfl

/-- The ten row blocks tile the output. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto1 ⟨(i 0).val / 10000, by omega⟩
  have q0 : win1_3.index t (0 : Fin 2) = (i 0).val / 10000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 128 ≤ (i 1).val ∧ (i 1).val < win1_3.index t (1 : Fin 2) * 128 + 128; omega

/-- The output array after the region: the dense layer of the three arrays as the region finds them. -/
theorem final1 (c : Dev nD) :
    (dat1 V c).arrAt 3 cfg1.N = rowRelu (V c main_v36) (V c main_arg5) (V c main_v37) :=
  (dat1 V c).arrAt_eq_of_cover 3 (rowRelu (V c main_v36) (V c main_arg5) (V c main_v37))
    (fun t _ => flushed1 V c t) cover1

end Cert.KernelIdeal.Rows

end
-- ==== Proof.LibEdgeSum.lean ====
/-
  Sums over the edges of a graph, over the extended reals.

  A graph on N nodes with R edges is given by each edge's source row srow e and its target dstI e, an integer that need
  not be a node.  Node n's aggregate of an array h : [N, A] is the sum, over the edges whose target is n, of the row
  of h at the edge's source:

    edgeSum h srow dstI (n, a) = ∑ e, if dstI e = n then h (srow e, a) else 0

  Two facts about it:

    * listing the edges in another order (a bijection of the edge numbers) does not change it — addition of extended
      reals is commutative and associative, so this holds with no finiteness assumption;
    * over arrays of finite entries, aggregating and then multiplying by a matrix on the right is multiplying and then
      aggregating, mm (edgeSum h) w = edgeSum (mm h w): distributivity and an exchange of two finite sums.  Finiteness
      is needed here: x * (a + b) = x * a + x * b fails at the infinities.

  IsReal x says every entry of x is a real number; edge sums, matrix products and dense layers keep it.
-/
import Mathlib.Data.EReal.Basic
import Mathlib.Data.EReal.Operations
import Mathlib.Algebra.BigOperators.Group.Finset.Basic
import Mathlib.Algebra.BigOperators.Ring.Finset
import Mathlib.Data.Fintype.BigOperators
import Idealize.ShloMosaic.PureOps.Ideal
import Idealize.ShloMosaic.PureOps.Ideal.Laws
import Idealize.ShloMosaic.Lib.ValueIdx
import proofs.«155384_j13039520710795_2_alg».proof.Proof.LibDense

noncomputable section

namespace Idealize.ShloMosaic.EdgeSum

open Idealize.ShloMosaic Idealize.ShloMosaic.ValueIdx

variable {N A R M K Q : ℕ}

/-- Node n's aggregate: the sum over the edges e whose target dstI e is n of the row of h at the edge's source
srow e; an edge whose target is no node contributes nothing. -/
def edgeSum (h : (⟨2, ![N, A]⟩ : Shape).Idx → EReal) (srow : Fin R → Fin N) (dstI : Fin R → ℤ) :
    (⟨2, ![N, A]⟩ : Shape).Idx → EReal := fun i =>
  ∑ e : Fin R, if dstI e = ((i 0).val : ℤ) then h (ix2 (srow e) (i 1)) else 0

/-- A finite sum reindexed by a bijection of the edge numbers. -/
theorem edgeSum_comp_bij (h : (⟨2, ![N, A]⟩ : Shape).Idx → EReal) (srow : Fin R → Fin N) (dstI : Fin R → ℤ)
    (σ : Fin R → Fin R) (hσ : Function.Bijective σ) :
    edgeSum h (fun e => srow (σ e)) (fun e => dstI (σ e)) = edgeSum h srow dstI := by
  funext i
  exact Function.Bijective.sum_comp hσ
    (fun e => if dstI e = ((i 0).val : ℤ) then h (ix2 (srow e) (i 1)) else 0)

/-- The plain matrix product, entry by entry. -/
def mm (a : (⟨2, ![M, K]⟩ : Shape).Idx → EReal) (w : (⟨2, ![K, Q]⟩ : Shape).Idx → EReal) :
    (⟨2, ![M, Q]⟩ : Shape).Idx → EReal := fun i =>
  ∑ k : Fin K, a (ix2 (i 0) k) * w (ix2 k (i 1))

/-- Every entry is a real number. -/
def IsReal {s : Shape} (x : s.Idx → EReal) : Prop := ∀ i, ∃ r : ℝ, x i = (r : EReal)

/-- The inclusion of the reals in the extended reals commutes with finite sums (induction on the index set, with
the inclusion additive). -/
theorem coe_sum {ι : Type} (s : Finset ι) (f : ι → ℝ) :
    ((∑ j ∈ s, f j : ℝ) : EReal) = ∑ j ∈ s, (f j : EReal) := by
  classical
  refine Finset.induction_on s ?_ ?_
  · simp
  · intro j t hj ih
    rw [Finset.sum_insert hj, Finset.sum_insert hj, EReal.coe_add, ih]

/-- A choice between a real and zero, included in the extended reals. -/
theorem coe_ite (p : Prop) [Decidable p] (r : ℝ) :
    (if p then (r : EReal) else 0) = ((if p then r else 0 : ℝ) : EReal) := by
  split_ifs <;> simp

/-- An edge sum of reals is real: a finite sum of reals and zeros. -/
theorem isReal_edgeSum {h : (⟨2, ![N, A]⟩ : Shape).Idx → EReal} {srow : Fin R → Fin N} {dstI : Fin R → ℤ}
    (hh : IsReal h) : IsReal (edgeSum h srow dstI) := by
  intro i
  choose rh hrh using hh
  refine ⟨∑ e : Fin R, if dstI e = ((i 0).val : ℤ) then rh (ix2 (srow e) (i 1)) else 0, ?_⟩
  rw [coe_sum]
  show (∑ e : Fin R, if dstI e = ((i 0).val : ℤ) then h (ix2 (srow e) (i 1)) else 0) = _
  refine Finset.sum_congr rfl (fun e _ => ?_)
  rw [hrh, coe_ite]

/-- A product of real matrices is real: a finite sum of products of reals. -/
theorem isReal_mm {a : (⟨2, ![M, K]⟩ : Shape).Idx → EReal} {w : (⟨2, ![K, Q]⟩ : Shape).Idx → EReal}
    (ha : IsReal a) (hw : IsReal w) : IsReal (mm a w) := by
  intro i
  choose ra hra using ha
  choose rw' hrw using hw
  refine ⟨∑ k : Fin K, ra (ix2 (i 0) k) * rw' (ix2 k (i 1)), ?_⟩
  rw [coe_sum]
  show (∑ k : Fin K, a (ix2 (i 0) k) * w (ix2 k (i 1))) = _
  refine Finset.sum_congr rfl (fun k _ => ?_)
  rw [hra, hrw, EReal.coe_mul]

/-- A dense layer is its matrix product plus the bias row, cut off below at zero. -/
theorem linRelu_eq_mm (x : (⟨2, ![M, K]⟩ : Shape).Idx → EReal) (w : (⟨2, ![K, Q]⟩ : Shape).Idx → EReal)
    (b : (⟨1, ![Q]⟩ : Shape).Idx → EReal) :
    DenseLayer.linRelu x w b = fun i => max (mm x w i + b (ix1 (i 1))) DenseLayer.zeroWord := rfl

/-- A dense layer of reals is real: the larger of a real and zero. -/
theorem isReal_linRelu (x : (⟨2, ![M, K]⟩ : Shape).Idx → EReal) (w : (⟨2, ![K, Q]⟩ : Shape).Idx → EReal)
    (b : (⟨1, ![Q]⟩ : Shape).Idx → EReal) (hx : IsReal x) (hw : IsReal w) (hb : IsReal b) :
    IsReal (DenseLayer.linRelu x w b) := by
  intro i
  obtain ⟨rm, hrm⟩ := isReal_mm hx hw i
  obtain ⟨rb, hrb⟩ := hb (ix1 (i 1))
  refine ⟨max (rm + rb) 0, ?_⟩
  rw [linRelu_eq_mm]
  show max (mm x w i + b (ix1 (i 1))) DenseLayer.zeroWord = _
  rw [hrm, hrb, show DenseLayer.zeroWord = ((0 : ℝ) : EReal) from Ideal.ofBits_zero_f32, ← EReal.coe_add]
  exact (EReal.coe_strictMono.monotone.map_max).symm

/-- Aggregating and then multiplying by a matrix is multiplying and then aggregating, over real entries: both sides
are the inclusion of a real double sum; over the reals the product distributes over the inner sum, the two sums are
exchanged, and a product with a choice between a number and zero is the choice between the product and zero. -/
theorem mm_edgeSum (h : (⟨2, ![N, K]⟩ : Shape).Idx → EReal) (w : (⟨2, ![K, Q]⟩ : Shape).Idx → EReal)
    (hh : IsReal h) (hw : IsReal w) (srow : Fin R → Fin N) (dstI : Fin R → ℤ) :
    mm (edgeSum h srow dstI) w = edgeSum (mm h w) srow dstI := by
  funext i
  choose rh hrh using hh
  choose rw' hrw using hw
  have hL : mm (edgeSum h srow dstI) w i
      = ((∑ k : Fin K, (∑ e : Fin R, if dstI e = ((i 0).val : ℤ) then rh (ix2 (srow e) k) else 0)
          * rw' (ix2 k (i 1)) : ℝ) : EReal) := by
    rw [coe_sum]
    show (∑ k : Fin K, (∑ e : Fin R, if dstI e = ((i 0).val : ℤ) then h (ix2 (srow e) k) else 0)
      * w (ix2 k (i 1))) = _
    refine Finset.sum_congr rfl (fun k _ => ?_)
    rw [EReal.coe_mul, coe_sum, hrw]
    refine congrArg (fun t => t * (rw' (ix2 k (i 1)) : EReal)) ?_
    refine Finset.sum_congr rfl (fun e _ => ?_)
    rw [hrh, coe_ite]
  have hR : edgeSum (mm h w) srow dstI i
      = ((∑ e : Fin R, if dstI e = ((i 0).val : ℤ)
          then ∑ k : Fin K, rh (ix2 (srow e) k) * rw' (ix2 k (i 1)) else 0 : ℝ) : EReal) := by
    rw [coe_sum]
    show (∑ e : Fin R, if dstI e = ((i 0).val : ℤ)
      then ∑ k : Fin K, h (ix2 (srow e) k) * w (ix2 k (i 1)) else 0) = _
    refine Finset.sum_congr rfl (fun e _ => ?_)
    rw [← coe_ite, coe_sum]
    refine congrArg (fun t => if dstI e = ((i 0).val : ℤ) then t else (0 : EReal)) ?_
    refine Finset.sum_congr rfl (fun k _ => ?_)
    rw [hrh, hrw, EReal.coe_mul]
  rw [hL, hR]
  refine congrArg (fun t : ℝ => (t : EReal)) ?_
  simp only [Finset.sum_mul]
  rw [Finset.sum_comm]
  refine Finset.sum_congr rfl (fun e _ => ?_)
  by_cases hp : dstI e = ((i 0).val : ℤ)
  · simp only [if_pos hp]
  · simp only [if_neg hp, zero_mul, Finset.sum_const_zero]

end Idealize.ShloMosaic.EdgeSum

end
-- ==== Proof.Region2.lean ====
/-
  Region 2: a matrix product, row block by row block.

  Ten points; point `t` stages rows `10000 t … 10000 t + 9999` of the `[100000, 128]` input and the whole `[128, 64]`
  weight and writes back the same rows of their product (the change of float format on the way in is the identity at
  the ideal values).  A row of a product depends on that row of the left operand only, so the blocks are the
  restrictions of the product of the whole arrays and tile the output.
-/
import proofs.«155384_j13039520710795_2_alg».proof.Proof.Region0
import proofs.«155384_j13039520710795_2_alg».proof.Proof.LibEdgeSum

set_option maxRecDepth 16384

noncomputable section

namespace Cert.KernelIdeal.Rows

open Cert.KernelIdeal Cert.KernelIdeal.Gen
open Idealize.ShloMosaic Idealize.ShloMosaic.TcCoe Idealize.ShloMosaic.ValueIdx Idealize.ShloMosaic.DenseLayer
open Idealize.ShloMosaic.EdgeSum
open Idealize.SL.Sem
open Idealize.ShloMosaic.Pipeline (Dat Cfg Window)

/-- The body's stored value at row `p`, column `q` of its block. -/
theorem pay2_apply (x0 : Vec Ideal S10000x128 .f32) (x1 : Vec Ideal S128x64 .f32) (p : Fin 10000) (q : Fin 64) :
    k2_pay1 x0 x1 (ix2 p q) = ∑ k : Fin 128, x0 (ix2 p k) * x1 (ix2 k q) := by
  unfold k2_pay1
  refine (PlainDot.matmul_zero_apply dot_S10000x128_S128x64_S10000x64_1_0_0_1_n_n rfl none _ _ p q).trans ?_
  refine Finset.sum_congr rfl fun k _ => ?_
  rw [truncf_apply, truncf_apply, shapeCast_self]

/-- The printed index maps over the ten grid points: the input block moves with the output block along the rows, the
    weight is whole at every point. -/
theorem idx_facts2 : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (0 : Fin 2) ≤ 9 ∧ win2_2.index t (1 : Fin 2) = 0 :=
  (by decide +kernel : ∀ t : Fin grid2.N, _)

/-- Every row block of the output is some point's. -/
theorem idx_onto2 : ∀ q0 : Fin 10, ∃ t : Fin cfg2.N, win2_2.index t = ![q0.val, 0] :=
  (by decide +kernel : ∀ q0 : Fin 10, ∃ t : Fin grid2.N, win2_2.index t = ![q0.val, 0])

variable (V : (c : Dev nD) → (b : Ref sig .tc) → Buf (Elt Ideal) ((c : Thread nD τ).loc b))

/-- What point `t` writes back is block `t` of the product of the two arrays as the region finds them. -/
theorem flushed2 (c : Dev nD) (t : Fin cfg2.N) :
    (dat2 V c).flushed 2 t
      = ((cfg2.win 2).blk t).view.read (Elt Ideal) (mm (V c main_v38) (V c main_arg7)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x64) hz]
  obtain ⟨e0, e1, e2, e3, e4, e5⟩ := idx_facts2 t
  funext j
  obtain ⟨p, q, rfl⟩ : ∃ (p : Fin 10000) (q : Fin 64), j = ix2 p q := ⟨j 0, j 1, eq_ix2 j⟩
  show k2_pay1 (iblk2 V c 0 t) (iblk2 V c 1 t) (ix2 p q)
    = mm (V c main_v38) (V c main_arg7) (((cfg2.win 2).blk t).view.emb (ix2 p q))
  refine (pay2_apply (iblk2 V c 0 t) (iblk2 V c 1 t) p q).trans ?_
  have h0 : ∀ k : Fin 128, ((cfg2.win 0).blk t).view.emb (ix2 p k)
      = ix2 ((((cfg2.win 2).blk t).view.emb (ix2 p q)) 0) k := by
    intro k; funext a; apply Fin.ext
    match a with
    | ⟨0, _⟩ => show win2_0.index t (0 : Fin 2) * 10000 + 1 * p.val = win2_2.index t (0 : Fin 2) * 10000 + 1 * p.val; omega
    | ⟨1, _⟩ => show win2_0.index t (1 : Fin 2) * 128 + 1 * k.val = k.val; omega
  have h1 : ∀ k : Fin 128, ((cfg2.win 1).blk t).view.emb (ix2 k q)
      = ix2 k ((((cfg2.win 2).blk t).view.emb (ix2 p q)) 1) := by
    intro k; funext a; apply Fin.ext
    match a with
    | ⟨0, _⟩ => show win2_1.index t (0 : Fin 2) * 128 + 1 * k.val = k.val; omega
    | ⟨1, _⟩ => show win2_1.index t (1 : Fin 2) * 64 + 1 * q.val = win2_2.index t (1 : Fin 2) * 64 + 1 * q.val; omega
  refine Finset.sum_congr rfl fun k _ => congrArg₂ (· * ·) ?_ ?_
  · exact congrArg (V c main_v38) (h0 k)
  · exact congrArg (V c main_arg7) (h1 k)

/-- An index of the output is in point `t`'s block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v39).slice (win2_2.rect t)).set ↔ _
  rw [View.set_slice_whole, Rect.mem_set_unit]
  exact Iff.rfl

/-- The ten row blocks tile the output. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The output array after the region: the product of the two arrays as the region finds them. -/
theorem final2 (c : Dev nD) : (dat2 V c).arrAt 2 cfg2.N = mm (V c main_v38) (V c main_arg7) :=
  (dat2 V c).arrAt_eq_of_cover 2 (mm (V c main_v38) (V c main_arg7)) (fun t _ => flushed2 V c t) cover2

end Cert.KernelIdeal.Rows

end
-- ==== Proof.Region3.lean ====
/-
  Region 3: a bias row added and a ReLU, row block by row block.

  Ten points; point `t` stages rows `10000 t … 10000 t + 9999` of the `[100000, 64]` input and the whole `[1, 64]` bias
  row and writes back `max (x + b) 0` on the same rows.  The body is entry by entry, so the blocks are the restrictions
  of `biasRelu` of the whole arrays and tile the output.
-/
import proofs.«155384_j13039520710795_2_alg».proof.Proof.Region0

set_option maxRecDepth 16384

noncomputable section

namespace Cert.KernelIdeal.Rows

open Cert.KernelIdeal Cert.KernelIdeal.Gen
open Idealize.ShloMosaic Idealize.ShloMosaic.TcCoe Idealize.ShloMosaic.ValueIdx Idealize.ShloMosaic.DenseLayer
open Idealize.SL.Sem
open Idealize.ShloMosaic.Pipeline (Dat Cfg Window)

/-- `max (x + b) 0` entry by entry, the bias given as a `[1, Q]` row. -/
def biasRelu {M Q : ℕ} (x : (⟨2, ![M, Q]⟩ : Shape).Idx → EReal) (b : (⟨2, ![1, Q]⟩ : Shape).Idx → EReal) :
    (⟨2, ![M, Q]⟩ : Shape).Idx → EReal := fun i => max (x i + b (ix2 (0 : Fin 1) (i 1))) zeroWord

/-- The body's stored value at row `p`, column `q` of its block. -/
theorem pay3_apply (x0 : Vec Ideal S10000x64 .f32) (x1 : Vec Ideal S1x64 .f32) (p : Fin 10000) (q : Fin 64) :
    k3_pay1 x0 x1 (ix2 p q) = max (x0 (ix2 p q) + x1 (ix2 (0 : Fin 1) q)) zeroWord := by
  unfold k3_pay1
  refine (maximumf_apply _ _ _).trans ?_
  refine congrArg₂ max ?_ rfl
  refine (addf_apply _ _ _).trans ?_
  refine congrArg₂ (· + ·) ?_ ?_
  · rw [shapeCast_self]
  · rw [broadcastTo_1b_ab_apply, shapeCast_self]

/-- The printed index maps over the ten grid points: the input block is the output block, the bias row is whole at
    every point. -/
theorem idx_facts3 : ∀ t : Fin cfg3.N,
    win3_0.index t (0 : Fin 2) = win3_2.index t (0 : Fin 2) ∧ win3_0.index t (1 : Fin 2) = win3_2.index t (1 : Fin 2)
    ∧ win3_1.index t (0 : Fin 2) = 0 ∧ win3_1.index t (1 : Fin 2) = 0
    ∧ win3_2.index t (0 : Fin 2) ≤ 9 ∧ win3_2.index t (1 : Fin 2) = 0 :=
  (by decide +kernel : ∀ t : Fin grid3.N, _)

/-- Every row block of the output is some point's. -/
theorem idx_onto3 : ∀ q0 : Fin 10, ∃ t : Fin cfg3.N, win3_2.index t = ![q0.val, 0] :=
  (by decide +kernel : ∀ q0 : Fin 10, ∃ t : Fin grid3.N, win3_2.index t = ![q0.val, 0])

variable (V : (c : Dev nD) → (b : Ref sig .tc) → Buf (Elt Ideal) ((c : Thread nD τ).loc b))

/-- What point `t` writes back is block `t` of `biasRelu` of the two arrays as the region finds them. -/
theorem flushed3 (c : Dev nD) (t : Fin cfg3.N) :
    (dat3 V c).flushed 2 t
      = ((cfg3.win 2).blk t).view.read (Elt Ideal) (biasRelu (V c main_v49) (V c main_v50)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  obtain ⟨e0, e1, e2, e3, e4, e5⟩ := idx_facts3 t
  funext j
  obtain ⟨p, q, rfl⟩ : ∃ (p : Fin 10000) (q : Fin 64), j = ix2 p q := ⟨j 0, j 1, eq_ix2 j⟩
  show k3_pay1 (iblk3 V c 0 t) (iblk3 V c 1 t) (ix2 p q)
    = biasRelu (V c main_v49) (V c main_v50) (((cfg3.win 2).blk t).view.emb (ix2 p q))
  refine (pay3_apply (iblk3 V c 0 t) (iblk3 V c 1 t) p q).trans ?_
  have h0 : ((cfg3.win 0).blk t).view.emb (ix2 p q) = ((cfg3.win 2).blk t).view.emb (ix2 p q) := by
    funext a; apply Fin.ext
    match a with
    | ⟨0, _⟩ => show win3_0.index t (0 : Fin 2) * 10000 + 1 * p.val = win3_2.index t (0 : Fin 2) * 10000 + 1 * p.val; omega
    | ⟨1, _⟩ => show win3_0.index t (1 : Fin 2) * 64 + 1 * q.val = win3_2.index t (1 : Fin 2) * 64 + 1 * q.val; omega
  have h1 : ((cfg3.win 1).blk t).view.emb (ix2 (0 : Fin 1) q)
      = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  refine congrArg₂ max (congrArg₂ (· + ·) ?_ ?_) rfl
  · exact congrArg (V c main_v49) h0
  · exact congrArg (V c main_v50) h1

/-- An index of the output is in point `t`'s block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v51).slice (win3_2.rect t)).set ↔ _
  rw [View.set_slice_whole, Rect.mem_set_unit]
  exact Iff.rfl

/-- The ten row blocks tile the output. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The output array after the region: `biasRelu` of the two arrays as the region finds them. -/
theorem final3 (c : Dev nD) : (dat3 V c).arrAt 2 cfg3.N = biasRelu (V c main_v49) (V c main_v50) :=
  (dat3 V c).arrAt_eq_of_cover 2 (biasRelu (V c main_v49) (V c main_v50)) (fun t _ => flushed3 V c t) cover3

end Cert.KernelIdeal.Rows

end
-- ==== Proof.KernelTerms.lean ====
/-
  The idealized kernel's host operations as functions of arrays, and its result as one function of its arguments.

  Between the pipelined regions the host lists the edges in the order of their targets (a stable sort of the targets
  carrying the positions, then the sources and the targets read at those positions) and sums, for every node, the rows
  at the sources of the edges into it (rows gathered at the normalised sources, then added into zeros at the targets).
  The regions are the dense layers (the row-block modules).  `kout` composes them in the program's order: two rounds
  of neighbour sum and dense layer, then the product with the third weight BEFORE the third neighbour sum, and the
  third bias and ReLU after it.
-/
import proofs.«155384_j13039520710795_2_alg».proof.Proof.Region1
import proofs.«155384_j13039520710795_2_alg».proof.Proof.Region2
import proofs.«155384_j13039520710795_2_alg».proof.Proof.Region3

noncomputable section

namespace Cert.KernelIdeal.Named

open Cert.KernelIdeal Cert.KernelIdeal.Rows Cert.KernelIdeal.Facts₀ Cert.KernelIdeal.Facts
open Idealize.ShloMosaic Idealize.ShloMosaic.ValueIdx Idealize.ShloMosaic.EdgeSum

/-! ## The host stretches' terms -/

/-- The edges' positions in the order of their targets (a stable sort carrying the positions). -/
def perm (a2 : IVec S1600000 32) : IVec S1600000 32 :=
  (Host.sort2 S1600000 0 comparator_i32_i32_d0 a2 (iotaInDim S1600000 32 0)).2

/-- The positions as the host normalises them before indexing (a negative one would count from the end). -/
def pos (a2 : IVec S1600000 32) : IVec S1600000 32 :=
  select (cmpi .slt (perm a2) (broadcastInDim S1600000 ![] bcast_S_S1600000 (constantI S_ 32 0#32)))
    (addi (perm a2) (broadcastInDim S1600000 ![] bcast_S_S1600000 (constantI S_ 32 1600000#32))) (perm a2)

/-- A flat array listed in the order of the targets. -/
def sorted (v a2 : IVec S1600000 32) : IVec S1600000 32 :=
  Host.gather gather_S1600000_S1600000x1_S1600000_n_0_n_n_0_1_1 v
    (broadcastInDim S1600000x1 ![0] bcast_S1600000_S1600000x1_0 (pos a2))

/-- The neighbour sum of 128-wide rows, as the host spells it. -/
def agg128 (h : FVec Ideal S100000x128 .f32) (s d : IVec S1600000 32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The neighbour sum of 64-wide rows, as the host spells it. -/
def agg64 (h : FVec Ideal S100000x64 .f32) (s d : IVec S1600000 32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 d)
    (Host.gather gather_S100000x64_S1600000x1_S1600000x64_1_0_n_n_0_1_164 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- A bias vector laid out as a row. -/
def row128 (b : FVec Ideal S128 .f32) : FVec Ideal S1x128 .f32 := shapeCast S1x128 b shapeCasts_S128_S1x128
def row64 (b : FVec Ideal S64 .f32) : FVec Ideal S1x64 .f32 := shapeCast S1x64 b shapeCasts_S64_S1x64

/-- The program's result as a function of its arguments. -/
def kout (a0 : FVec Ideal S100000x128 .f32) (a1 a2 : IVec S1600000 32) (a3 : FVec Ideal S128x128 .f32)
    (a4 : FVec Ideal S128 .f32) (a5 : FVec Ideal S128x128 .f32) (a6 : FVec Ideal S128 .f32)
    (a7 : FVec Ideal S128x64 .f32) (a8 : FVec Ideal S64 .f32) : FVec Ideal S100000x64 .f32 :=
  biasRelu (agg64 (mm (rowRelu (agg128 (rowRelu (agg128 a0 (sorted a1 a2) (sorted a2 a2)) a3 (row128 a4))
      (sorted a1 a2) (sorted a2 a2)) a5 (row128 a6)) a7) (sorted a1 a2) (sorted a2 a2)) (row64 a8)

end Cert.KernelIdeal.Named

end
-- ==== Proof.KernelEntry.lean ====
/-
  The idealized kernel's buffers when its first region is entered.

  Before the first region the host lists the edges in the order of their targets (the positions a stable sort of the
  targets carries, then the sources and the targets read at those positions), sums for every node the argument rows at
  the sources of the edges into it, and lays the first bias out as a row.  Each of these buffers is read off the
  stretch's operations; the weights and biases are untouched.
-/
import proofs.«155384_j13039520710795_2_alg».proof.Proof.KernelRun
import proofs.«155384_j13039520710795_2_alg».proof.Proof.KernelTerms
import Idealize.ShloMosaic.Lib.StableHlo.Run

set_option maxRecDepth 16384

noncomputable section

namespace Cert.KernelIdeal.Named

open Cert.KernelIdeal Cert.KernelIdeal.Gen Cert.KernelIdeal.Rows
open Idealize.ShloMosaic Idealize.ShloMosaic.TcCoe Idealize.ShloMosaic.Tactic Idealize.ShloMosaic.StableHlo
open Idealize.ShloMosaic.ValueIdx Idealize.ShloMosaic.EdgeSum
open Idealize.SL.Sem

variable (m : (ℓ : Loc nD τ sig) → Buf (Elt Ideal) ℓ) (ρ : Dev nD → PrngReg) (c : Dev nD)

/-- An argument array at launch. -/
abbrev argv (b : Ref sig .tc) := W0 m ρ c (Proc.devRef .tc b)

/-! ## Region 0's entry: after the first two stretches -/

theorem W2_v7 : W2 m ρ c (Proc.devRef .tc main_v7) = sorted (argv m ρ c main_arg1) (argv m ρ c main_arg2) := by
  show StableHlo.after hostOps0_1 (StableHlo.after hostOps0 (W0 m ρ c)) (Proc.devRef .tc main_v7) = _
  after_results
  rfl
set_option maxHeartbeats 4000000 in
theorem W2_v14 : W2 m ρ c (Proc.devRef .tc main_v14) = sorted (argv m ρ c main_arg2) (argv m ρ c main_arg2) := by
  show StableHlo.after hostOps0_1 (StableHlo.after hostOps0 (W0 m ρ c)) (Proc.devRef .tc main_v14) = _
  after_results
  rfl
set_option maxHeartbeats 4000000 in
theorem W2_v24 : W2 m ρ c (Proc.devRef .tc main_v24)
    = agg128 (argv m ρ c main_arg0) (sorted (argv m ρ c main_arg1) (argv m ρ c main_arg2))
        (sorted (argv m ρ c main_arg2) (argv m ρ c main_arg2)) := by
  show StableHlo.after hostOps0_1 (StableHlo.after hostOps0 (W0 m ρ c)) (Proc.devRef .tc main_v24) = _
  after_results
  rfl
set_option maxHeartbeats 4000000 in
theorem W2_v25 : W2 m ρ c (Proc.devRef .tc main_v25) = row128 (argv m ρ c main_arg4) := by
  show StableHlo.after hostOps0_1 (StableHlo.after hostOps0 (W0 m ρ c)) (Proc.devRef .tc main_v25) = _
  after_results
  rfl
set_option maxHeartbeats 4000000 in
theorem W2_arg (b : Ref sig .tc) (h : b = main_arg3 ∨ b = main_arg5 ∨ b = main_arg6 ∨ b = main_arg7 ∨ b = main_arg8) :
    W2 m ρ c (Proc.devRef .tc b) = argv m ρ c b := by
  rcases h with rfl | rfl | rfl | rfl | rfl <;>
  · show StableHlo.after hostOps0_1 (StableHlo.after hostOps0 (W0 m ρ c)) _ = _
    after_results

end Cert.KernelIdeal.Named

end
-- ==== Proof.KernelValue.lean ====
/-
  The idealized kernel's result buffer, read through the run's boundaries.

  The program runs: a stretch of host operations (the edges' positions in the order of their targets, the sources and
  targets listed in that order, the first neighbour sum, the first bias as a row), region 0 (the first dense layer),
  a stretch (the second neighbour sum and bias row), region 1 (the second dense layer), region 2 (the product with the
  third weight), a stretch (the third neighbour sum, of the 64-wide products, and the third bias row) and region 3
  (bias and ReLU).  Each boundary's contents are read one buffer at a time: a host stretch's results are its
  operations of the buffers before it, a region's output array is the region's function (the row-block modules) of its
  input arrays, and every other buffer is as it was.  Composed, the result buffer after the last region is `kout` of
  the nine argument arrays.
-/
import proofs.«155384_j13039520710795_2_alg».proof.Proof.KernelEntry
import Idealize.ShloMosaic.Lib.StableHlo.Run

set_option maxRecDepth 16384

noncomputable section

namespace Cert.KernelIdeal.Named

open Cert.KernelIdeal Cert.KernelIdeal.Gen Cert.KernelIdeal.Rows
open Idealize.ShloMosaic Idealize.ShloMosaic.TcCoe Idealize.ShloMosaic.Tactic Idealize.ShloMosaic.StableHlo
open Idealize.ShloMosaic.ValueIdx Idealize.ShloMosaic.EdgeSum
open Idealize.SL.Sem

variable (m : (ℓ : Loc nD τ sig) → Buf (Elt Ideal) ℓ) (ρ : Dev nD → PrngReg) (c : Dev nD)

/-! ## Region 0's exit -/

theorem W3_v26 : W3 m ρ c (Proc.devRef .tc main_v26)
    = rowRelu (W2 m ρ c (Proc.devRef .tc main_v24)) (W2 m ρ c (Proc.devRef .tc main_arg3))
        (W2 m ρ c (Proc.devRef .tc main_v25)) :=
  (W3_arr m ρ c 3).trans (final0 (V2 m ρ) c)
theorem W3_keep (b : Ref sig .tc) (h : b = main_v7 ∨ b = main_v14 ∨ b = main_arg5 ∨ b = main_arg6 ∨ b = main_arg7 ∨ b = main_arg8) :
    W3 m ρ c (Proc.devRef .tc b) = W2 m ρ c (Proc.devRef .tc b) := by
  rcases h with rfl | rfl | rfl | rfl | rfl | rfl <;> exact W3_of_ne m ρ c _ (by decide)

/-! ## Region 1's entry: after the second stretch -/

set_option maxHeartbeats 4000000 in
theorem W4_v36 : W4 m ρ c (Proc.devRef .tc main_v36)
    = agg128 (W3 m ρ c (Proc.devRef .tc main_v26)) (W3 m ρ c (Proc.devRef .tc main_v7))
        (W3 m ρ c (Proc.devRef .tc main_v14)) := by
  show StableHlo.after hostOps1 (W3 m ρ c) (Proc.devRef .tc main_v36) = _
  after_results
  rfl
set_option maxHeartbeats 4000000 in
theorem W4_v37 : W4 m ρ c (Proc.devRef .tc main_v37) = row128 (W3 m ρ c (Proc.devRef .tc main_arg6)) := by
  show StableHlo.after hostOps1 (W3 m ρ c) (Proc.devRef .tc main_v37) = _
  after_results
  rfl
set_option maxHeartbeats 4000000 in
theorem W4_keep (b : Ref sig .tc) (h : b = main_v7 ∨ b = main_v14 ∨ b = main_arg5 ∨ b = main_arg7 ∨ b = main_arg8) :
    W4 m ρ c (Proc.devRef .tc b) = W3 m ρ c (Proc.devRef .tc b) := by
  rcases h with rfl | rfl | rfl | rfl | rfl <;>
  · show StableHlo.after hostOps1 (W3 m ρ c) _ = _
    after_results

/-! ## Region 1's and region 2's exits -/

theorem W5_v38 : W5 m ρ c (Proc.devRef .tc main_v38)
    = rowRelu (W4 m ρ c (Proc.devRef .tc main_v36)) (W4 m ρ c (Proc.devRef .tc main_arg5))
        (W4 m ρ c (Proc.devRef .tc main_v37)) :=
  (W5_arr m ρ c 3).trans (final1 (V4 m ρ) c)
theorem W5_keep (b : Ref sig .tc) (h : b = main_v7 ∨ b = main_v14 ∨ b = main_arg7 ∨ b = main_arg8) :
    W5 m ρ c (Proc.devRef .tc b) = W4 m ρ c (Proc.devRef .tc b) := by
  rcases h with rfl | rfl | rfl | rfl <;> exact W5_of_ne m ρ c _ (by decide)

theorem W6_v39 : W6 m ρ c (Proc.devRef .tc main_v39)
    = mm (W5 m ρ c (Proc.devRef .tc main_v38)) (W5 m ρ c (Proc.devRef .tc main_arg7)) :=
  (W6_arr m ρ c 2).trans (final2 (V5 m ρ) c)
theorem W6_keep (b : Ref sig .tc) (h : b = main_v7 ∨ b = main_v14 ∨ b = main_arg8) :
    W6 m ρ c (Proc.devRef .tc b) = W5 m ρ c (Proc.devRef .tc b) := by
  rcases h with rfl | rfl | rfl <;> exact W6_of_ne m ρ c _ (by decide)

/-! ## Region 3's entry and exit -/

set_option maxHeartbeats 4000000 in
theorem W7_v49 : W7 m ρ c (Proc.devRef .tc main_v49)
    = agg64 (W6 m ρ c (Proc.devRef .tc main_v39)) (W6 m ρ c (Proc.devRef .tc main_v7))
        (W6 m ρ c (Proc.devRef .tc main_v14)) := by
  show StableHlo.after hostOps3 (W6 m ρ c) (Proc.devRef .tc main_v49) = _
  after_results
  rfl
set_option maxHeartbeats 4000000 in
theorem W7_v50 : W7 m ρ c (Proc.devRef .tc main_v50) = row64 (W6 m ρ c (Proc.devRef .tc main_arg8)) := by
  show StableHlo.after hostOps3 (W6 m ρ c) (Proc.devRef .tc main_v50) = _
  after_results
  rfl

theorem W8_v51 : W8 m ρ c (Proc.devRef .tc main_v51)
    = biasRelu (W7 m ρ c (Proc.devRef .tc main_v49)) (W7 m ρ c (Proc.devRef .tc main_v50)) :=
  (W8_arr m ρ c 2).trans (final3 (V7 m ρ) c)

/-! ## Composed -/

/-- The result buffer after the last region is `kout` of the nine argument arrays. -/
theorem result_eq : W8 m ρ c (Proc.devRef .tc main_v51)
    = kout (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) (m ((c.tc : Thread nD τ).loc main_arg7))
        (m ((c.tc : Thread nD τ).loc main_arg8)) := by
  rw [W8_v51, W7_v49, W7_v50, W6_v39, W6_keep m ρ c main_v7 (.inl rfl), W6_keep m ρ c main_v14 (.inr (.inl rfl)),
    W6_keep m ρ c main_arg8 (.inr (.inr rfl)), W5_v38, W5_keep m ρ c main_v7 (.inl rfl),
    W5_keep m ρ c main_v14 (.inr (.inl rfl)), W5_keep m ρ c main_arg7 (.inr (.inr (.inl rfl))),
    W5_keep m ρ c main_arg8 (.inr (.inr (.inr rfl))), W4_v36, W4_v37,
    W4_keep m ρ c main_v7 (.inl rfl), W4_keep m ρ c main_v14 (.inr (.inl rfl)),
    W4_keep m ρ c main_arg5 (.inr (.inr (.inl rfl))), W4_keep m ρ c main_arg7 (.inr (.inr (.inr (.inl rfl)))),
    W4_keep m ρ c main_arg8 (.inr (.inr (.inr (.inr rfl)))), W3_v26,
    W3_keep m ρ c main_v7 (.inl rfl), W3_keep m ρ c main_v14 (.inr (.inl rfl)),
    W3_keep m ρ c main_arg5 (.inr (.inr (.inl rfl))), W3_keep m ρ c main_arg6 (.inr (.inr (.inr (.inl rfl)))),
    W3_keep m ρ c main_arg7 (.inr (.inr (.inr (.inr (.inl rfl))))),
    W3_keep m ρ c main_arg8 (.inr (.inr (.inr (.inr (.inr rfl))))),
    W2_v24, W2_v25, W2_v7, W2_v14, W2_arg m ρ c main_arg3 (.inl rfl), W2_arg m ρ c main_arg5 (.inr (.inl rfl)),
    W2_arg m ρ c main_arg6 (.inr (.inr (.inl rfl))), W2_arg m ρ c main_arg7 (.inr (.inr (.inr (.inl rfl)))),
    W2_arg m ρ c main_arg8 (.inr (.inr (.inr (.inr rfl))))]
  rfl

end Cert.KernelIdeal.Named

end
-- ==== Proof.LibRowGather.lean ====
/-
  A row gather read at an index. What `x[idx]` of an array `x : [N, A, B]` (or `[N, A]`) at a vector of `R` row
  numbers lowers to: a gather with the row numbers as an `[R, 1]` column, the row axis collapsed, the other axes
  offset axes of full extent. Result element `(r, a, b)` is `x` at row `idx[r, 0]` — read as a signed integer and
  clamped into `[0, N - 1]`, as the gather clamps every start index — and at `(a, b)` inside the row.
-/
import Idealize.ShloMosaic.Lib.ValueIdx

noncomputable section

namespace Idealize.ShloMosaic.RowGather

open Idealize.ShloMosaic Idealize.ShloMosaic.ValueIdx

variable {α : Type}

/-- The dimension numbers of a row gather from `[N, A, B]` by an `[R, 1]` column into `[R, A, B]`. -/
abbrev dims3 (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- The dimension numbers of a row gather from `[N, A]` by an `[R, 1]` column into `[R, A]`. -/
abbrev dims2 (N A R : Nat)
    (wf : GatherDims.WF ⟨2, ![N, A]⟩ ⟨2, ![R, 1]⟩ ⟨2, ![R, A]⟩ [1] [0] [] [0] [] 1 ![1, A]) :
    GatherDims ⟨2, ![N, A]⟩ ⟨2, ![R, 1]⟩ ⟨2, ![R, A]⟩ where
  offsetDims := [1]
  collapsedSliceDims := [0]
  operandBatchingDims := []
  startIndicesBatchingDims := []
  startIndexMap := [0]
  indexVectorDim := 1
  sliceSizes := ![1, A]
  wf := wf

/-- The row a start index selects: its signed value clamped into `[0, N - 1]`. -/
def rowOf (N : Nat) (hN : 0 < N) {w : Nat} (v : BitVec w) : Fin N := ⟨min v.toInt.toNat (N - 1), by omega⟩

/-- THE READ of a rank-3 row gather at `(r, a, b)`. -/
theorem gather3_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (dims3 N A B R wf) x idx (ix3 r a b) = x (ix3 (rowOf N hN (idx (ix2 r (0 : Fin 1)))) a b) := by
  unfold Host.gather
  refine congrArg x ?_
  funext ax
  refine Fin.ext ?_
  show (dims3 N A B R wf).start (ix3 r a b) idx ax + (dims3 N A B R wf).batchCoord (ix3 r a b) ax + (dims3 N A B R wf).offCoord (ix3 r a b) ax = _
  rw [GatherDims.batchCoord_eq_zero _ _ _ List.not_mem_nil]
  match ax with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 3) ∈ (dims3 N A B R wf).startIndexMap from List.mem_singleton.mpr rfl)]
    have hsi : (dims3 N A B R wf).siIdx (ix3 r a b) ⟨List.idxOf (⟨0, by decide⟩ : Fin 3) (dims3 N A B R wf).startIndexMap,
        List.idxOf_lt_length_iff.2 (List.mem_singleton.mpr rfl)⟩ = ix2 r (0 : Fin 1) := by
      funext d; refine Fin.ext ?_
      match d with
      | ⟨0, _⟩ => rfl
      | ⟨1, _⟩ => rfl
    rw [hsi]
    rfl
  | ⟨1, _⟩ =>
    unfold GatherDims.start
    rw [dif_neg (show ¬ (⟨1, _⟩ : Fin 3) ∈ (dims3 N A B R wf).startIndexMap by
      show ¬ (⟨1, _⟩ : Fin 3) ∈ [(0 : Fin 3)]
      simp [Fin.ext_iff])]
    unfold GatherDims.offCoord
    rw [dif_pos (show (⟨1, _⟩ : Fin 3) ∈ (dims3 N A B R wf).sKept from
      (GatherDims.mem_sKept _ _).mpr ⟨by show ¬ (⟨1, _⟩ : Fin 3) ∈ [(0 : Fin 3)]; simp [Fin.ext_iff], List.not_mem_nil⟩)]
    simp only [Nat.zero_add]
    rfl
  | ⟨2, _⟩ =>
    unfold GatherDims.start
    rw [dif_neg (show ¬ (⟨2, _⟩ : Fin 3) ∈ (dims3 N A B R wf).startIndexMap by
      show ¬ (⟨2, _⟩ : Fin 3) ∈ [(0 : Fin 3)]
      simp [Fin.ext_iff])]
    unfold GatherDims.offCoord
    rw [dif_pos (show (⟨2, _⟩ : Fin 3) ∈ (dims3 N A B R wf).sKept from
      (GatherDims.mem_sKept _ _).mpr ⟨by show ¬ (⟨2, _⟩ : Fin 3) ∈ [(0 : Fin 3)]; simp [Fin.ext_iff], List.not_mem_nil⟩)]
    simp only [Nat.zero_add]
    rfl

/-- THE READ of a rank-2 row gather at `(r, a)`. -/
theorem gather2_apply {N A R w : Nat} (hN : 0 < N)
    (wf : GatherDims.WF ⟨2, ![N, A]⟩ ⟨2, ![R, 1]⟩ ⟨2, ![R, A]⟩ [1] [0] [] [0] [] 1 ![1, A])
    (x : (⟨2, ![N, A]⟩ : Shape).Idx → α) (idx : IVec ⟨2, ![R, 1]⟩ w) (r : Fin R) (a : Fin A) :
    Host.gather (dims2 N A R wf) x idx (ix2 r a) = x (ix2 (rowOf N hN (idx (ix2 r (0 : Fin 1)))) a) := by
  unfold Host.gather
  refine congrArg x ?_
  funext ax
  refine Fin.ext ?_
  show (dims2 N A R wf).start (ix2 r a) idx ax + (dims2 N A R wf).batchCoord (ix2 r a) ax + (dims2 N A R wf).offCoord (ix2 r a) ax = _
  rw [GatherDims.batchCoord_eq_zero _ _ _ List.not_mem_nil]
  match ax with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 2) ∈ (dims2 N A R wf).startIndexMap from List.mem_singleton.mpr rfl)]
    have hsi : (dims2 N A R wf).siIdx (ix2 r a) ⟨List.idxOf (⟨0, by decide⟩ : Fin 2) (dims2 N A R wf).startIndexMap,
        List.idxOf_lt_length_iff.2 (List.mem_singleton.mpr rfl)⟩ = ix2 r (0 : Fin 1) := by
      funext d; refine Fin.ext ?_
      match d with
      | ⟨0, _⟩ => rfl
      | ⟨1, _⟩ => rfl
    rw [hsi]
    rfl
  | ⟨1, _⟩ =>
    unfold GatherDims.start
    rw [dif_neg (show ¬ (⟨1, _⟩ : Fin 2) ∈ (dims2 N A R wf).startIndexMap by
      show ¬ (⟨1, _⟩ : Fin 2) ∈ [(0 : Fin 2)]
      simp [Fin.ext_iff])]
    unfold GatherDims.offCoord
    rw [dif_pos (show (⟨1, _⟩ : Fin 2) ∈ (dims2 N A R wf).sKept from
      (GatherDims.mem_sKept _ _).mpr ⟨by show ¬ (⟨1, _⟩ : Fin 2) ∈ [(0 : Fin 2)]; simp [Fin.ext_iff], List.not_mem_nil⟩)]
    simp only [Nat.zero_add]
    rfl

end Idealize.ShloMosaic.RowGather

end
-- ==== Proof.Spec.lean ====
/-
  The specification: three rounds of "sum the neighbours' rows, apply a dense layer with a ReLU".

  The graph has 100000 nodes and 1600000 edges.  Edge `e` goes from the node `src e` to the node `dst e`, both given
  as 32-bit words.  The source is used as a row number the way the host normalises one: a negative number counts from
  the end (`+ 100000`), and the result is clamped into the rows that exist; the target is read as a signed integer
  and an edge whose target is no node contributes nothing.  One round maps an array `h` of node rows to

      max ((∑ over the edges e into n of h (src e)) · w + b) 0

  and the result is three rounds, with output widths 128, 128 and 64.
-/
import proofs.«155384_j13039520710795_2_alg».proof.Proof.LibRowGather
import proofs.«155384_j13039520710795_2_alg».proof.Proof.LibDense
import proofs.«155384_j13039520710795_2_alg».proof.Proof.LibEdgeSum

noncomputable section

namespace Cert.Sage

open Idealize.ShloMosaic Idealize.ShloMosaic.ValueIdx Idealize.ShloMosaic.EdgeSum Idealize.ShloMosaic.DenseLayer

/-- A row number as the host normalises it: a negative one counts from the end of the 100000 rows. -/
def wrapRow (v : BitVec 32) : BitVec 32 := Scalar.select (IntOp.cmpi .slt v 0#32) (IntOp.addi v 100000#32) v

/-- The source row of each edge. -/
def srcRow (src : IVec ⟨1, ![1600000]⟩ 32) : Fin 1600000 → Fin 100000 := fun e =>
  RowGather.rowOf 100000 (by decide) (wrapRow (src (ix1 e)))

/-- The target of each edge, as a signed integer. -/
def dstNode (dst : IVec ⟨1, ![1600000]⟩ 32) : Fin 1600000 → ℤ := fun e => (dst (ix1 e)).toInt

/-- One round: the neighbour sum, then the dense layer with its ReLU. -/
def round {K Q : ℕ} (h : (⟨2, ![100000, K]⟩ : Shape).Idx → EReal) (src dst : IVec ⟨1, ![1600000]⟩ 32)
    (w : (⟨2, ![K, Q]⟩ : Shape).Idx → EReal) (b : (⟨1, ![Q]⟩ : Shape).Idx → EReal) :
    (⟨2, ![100000, Q]⟩ : Shape).Idx → EReal :=
  linRelu (edgeSum h (srcRow src) (dstNode dst)) w b

/-- The three rounds. -/
def out (a0 : (⟨2, ![100000, 128]⟩ : Shape).Idx → EReal) (a1 a2 : IVec ⟨1, ![1600000]⟩ 32)
    (a3 : (⟨2, ![128, 128]⟩ : Shape).Idx → EReal) (a4 : (⟨1, ![128]⟩ : Shape).Idx → EReal)
    (a5 : (⟨2, ![128, 128]⟩ : Shape).Idx → EReal) (a6 : (⟨1, ![128]⟩ : Shape).Idx → EReal)
    (a7 : (⟨2, ![128, 64]⟩ : Shape).Idx → EReal) (a8 : (⟨1, ![64]⟩ : Shape).Idx → EReal) :
    (⟨2, ![100000, 64]⟩ : Shape).Idx → EReal :=
  round (round (round a0 a1 a2 a3 a4) a1 a2 a5 a6) a1 a2 a7 a8

end Cert.Sage

end
-- ==== Proof.LibRowScatterAdd.lean ====
/-
  A row scatter-add read at an index, at the ideal instance. What `x.at[idx].add(upd)` of an array `x : [N, A]` at a
  vector of `R` row numbers and updates `upd : [R, A]` lowers to: a scatter with an `add` body, the row numbers as an
  `[R, 1]` column, the row axis inserted, the column axis a window axis of full extent. Update row `e` lands on operand
  row `idx[e, 0]` — read as a signed integer and NOT clamped — when that is a row of the operand, and is dropped
  otherwise; the column is kept. So result element `(n, a)` is `x (n, a)` plus the sum of `upd (e, a)` over the update
  rows `e` whose row number is `n`.
-/
import Idealize.ShloMosaic.Lib.ValueIdx

noncomputable section

open scoped BigOperators

namespace Idealize.ShloMosaic.RowScatterAdd

open Idealize.ShloMosaic Idealize.ShloMosaic.ValueIdx

/-- The dimension numbers of a row scatter into `[N, A]` by an `[R, 1]` column of row numbers with updates `[R, A]`. -/
abbrev dims2 (N A R : Nat) (wf : ScatterDims.WF ⟨2, ![N, A]⟩ ⟨2, ![R, 1]⟩ ⟨2, ![R, A]⟩ [1] [0] [0] 1) :
    ScatterDims ⟨2, ![N, A]⟩ ⟨2, ![R, 1]⟩ ⟨2, ![R, A]⟩ where
  updateWindowDims := [1]
  insertedWindowDims := [0]
  scatterDimsToOperandDims := [0]
  indexVectorDim := 1
  wf := wf

section
variable {N A R w : Nat} (wf : ScatterDims.WF ⟨2, ![N, A]⟩ ⟨2, ![R, 1]⟩ ⟨2, ![R, A]⟩ [1] [0] [0] 1)
  (idx : IVec ⟨2, ![R, 1]⟩ w) (e : Fin R) (a' : Fin A)

/-- On the row axis the window starts at the row number `idx[e, 0]`, read signed: the row axis is the one axis the
    scatter-dims-to-operand-dims map names, and update index `(e, a')` reads its start index at `[e, 0]`. -/
theorem start_row : (dims2 N A R wf).start (ix2 e a') idx (⟨0, by decide⟩ : Fin 2) = (idx (ix2 e (0 : Fin 1))).toInt := by
  unfold ScatterDims.start
  rw [dif_pos (show (⟨0, _⟩ : Fin 2) ∈ (dims2 N A R wf).scatterDimsToOperandDims from List.mem_singleton.mpr rfl)]
  have hsi : (dims2 N A R wf).siIdx (ix2 e a') ⟨List.idxOf (⟨0, by decide⟩ : Fin 2) (dims2 N A R wf).scatterDimsToOperandDims,
      List.idxOf_lt_length_iff.2 (List.mem_singleton.mpr rfl)⟩ = ix2 e (0 : Fin 1) := by
    funext d; refine Fin.ext ?_
    match d with
    | ⟨0, _⟩ => rfl
    | ⟨1, _⟩ => rfl
  rw [hsi]

/-- On the column axis the window starts at `0`: the map does not name that axis. -/
theorem start_col : (dims2 N A R wf).start (ix2 e a') idx (⟨1, by decide⟩ : Fin 2) = 0 := by
  unfold ScatterDims.start
  rw [dif_neg (show ¬ (⟨1, _⟩ : Fin 2) ∈ (dims2 N A R wf).scatterDimsToOperandDims by
    show ¬ (⟨1, _⟩ : Fin 2) ∈ [(0 : Fin 2)]
    simp [Fin.ext_iff])]

/-- The row axis is inserted: its window coordinate is `0`. -/
theorem window_row : (dims2 N A R wf).window (ix2 e a') (⟨0, by decide⟩ : Fin 2) = 0 := by
  unfold ScatterDims.window
  rw [dif_neg (show ¬ (⟨0, _⟩ : Fin 2) ∈ (dims2 N A R wf).sKept from fun h =>
    of_decide_eq_true (List.mem_filter.mp h).2 (List.mem_singleton.mpr rfl))]

/-- The column axis is the one window axis: its window coordinate is the update's column. -/
theorem window_col : (dims2 N A R wf).window (ix2 e a') (⟨1, by decide⟩ : Fin 2) = a'.val := by
  unfold ScatterDims.window
  rw [dif_pos (show (⟨1, _⟩ : Fin 2) ∈ (dims2 N A R wf).sKept from
    List.mem_filter.mpr ⟨List.mem_finRange _, decide_eq_true (by
      show ¬ (⟨1, _⟩ : Fin 2) ∈ [(0 : Fin 2)]
      simp [Fin.ext_iff])⟩)]
  rfl

/-- WHERE AN UPDATE LANDS: update element `(e, a')` lands on operand element `(n, a)` exactly when its row number,
    read signed, is `n` and its column is `a`. The landing index is start plus window coordinate on each axis — the row
    number on the row axis, `a'` on the column axis — and exists when both are in range; the column always is. -/
theorem resultIdx_eq_some_iff (n : Fin N) (a : Fin A) :
    (dims2 N A R wf).resultIdx? (ix2 e a') idx = some (ix2 n a)
      ↔ (idx (ix2 e (0 : Fin 1))).toInt = (n.val : ℤ) ∧ a' = a := by
  have h0 : (dims2 N A R wf).start (ix2 e a') idx (⟨0, by decide⟩ : Fin 2) + (dims2 N A R wf).window (ix2 e a') (⟨0, by decide⟩ : Fin 2)
      = (idx (ix2 e (0 : Fin 1))).toInt := by
    rw [start_row, window_row]; simp
  have h1 : (dims2 N A R wf).start (ix2 e a') idx (⟨1, by decide⟩ : Fin 2) + (dims2 N A R wf).window (ix2 e a') (⟨1, by decide⟩ : Fin 2)
      = (a'.val : ℤ) := by
    rw [start_col, window_col]; simp
  have hn : n.val < N := n.isLt
  have ha' : a'.val < A := a'.isLt
  unfold ScatterDims.resultIdx?
  split
  · rename_i h
    constructor
    · intro hs
      have hf := Option.some.inj hs
      have e0 : ((dims2 N A R wf).start (ix2 e a') idx (⟨0, by decide⟩ : Fin 2)
          + (dims2 N A R wf).window (ix2 e a') (⟨0, by decide⟩ : Fin 2)).toNat = n.val :=
        congrArg (fun f : (⟨2, ![N, A]⟩ : Shape).Idx => (f (⟨0, by decide⟩ : Fin 2)).val) hf
      have e1 : ((dims2 N A R wf).start (ix2 e a') idx (⟨1, by decide⟩ : Fin 2)
          + (dims2 N A R wf).window (ix2 e a') (⟨1, by decide⟩ : Fin 2)).toNat = a.val :=
        congrArg (fun f : (⟨2, ![N, A]⟩ : Shape).Idx => (f (⟨1, by decide⟩ : Fin 2)).val) hf
      have hpos := (h (⟨0, by decide⟩ : Fin 2)).1
      rw [h0] at e0 hpos
      rw [h1] at e1
      refine ⟨by omega, Fin.ext (by omega)⟩
    · rintro ⟨hv, rfl⟩
      refine congrArg some ?_
      funext d; refine Fin.ext ?_
      match d with
      | ⟨0, _⟩ =>
        show ((dims2 N A R wf).start (ix2 e a') idx (⟨0, by decide⟩ : Fin 2)
          + (dims2 N A R wf).window (ix2 e a') (⟨0, by decide⟩ : Fin 2)).toNat = n.val
        rw [h0, hv]; simp
      | ⟨1, _⟩ =>
        show ((dims2 N A R wf).start (ix2 e a') idx (⟨1, by decide⟩ : Fin 2)
          + (dims2 N A R wf).window (ix2 e a') (⟨1, by decide⟩ : Fin 2)).toNat = a'.val
        rw [h1]; simp
  · rename_i h
    constructor
    · intro hs; exact absurd hs (by simp)
    · rintro ⟨hv, rfl⟩
      refine absurd (fun d => ?_) h
      match d with
      | ⟨0, _⟩ =>
        show 0 ≤ (dims2 N A R wf).start (ix2 e a') idx (⟨0, by decide⟩ : Fin 2) + (dims2 N A R wf).window (ix2 e a') (⟨0, by decide⟩ : Fin 2)
          ∧ (dims2 N A R wf).start (ix2 e a') idx (⟨0, by decide⟩ : Fin 2) + (dims2 N A R wf).window (ix2 e a') (⟨0, by decide⟩ : Fin 2) < (N : ℤ)
        rw [h0, hv]; omega
      | ⟨1, _⟩ =>
        show 0 ≤ (dims2 N A R wf).start (ix2 e a') idx (⟨1, by decide⟩ : Fin 2) + (dims2 N A R wf).window (ix2 e a') (⟨1, by decide⟩ : Fin 2)
          ∧ (dims2 N A R wf).start (ix2 e a') idx (⟨1, by decide⟩ : Fin 2) + (dims2 N A R wf).window (ix2 e a') (⟨1, by decide⟩ : Fin 2) < (A : ℤ)
        rw [h1]; omega

end

/-- THE READ of a row scatter-add at `(n, a)`, at the ideal instance: the operand element plus the updates `upd (e, a)`
    of the rows `e` whose row number, read signed, is `n`. The sum over the update elements that land on `(n, a)` is a
    double sum over `(e, a')`; by the landing condition the inner sum keeps the one column `a' = a`. -/
theorem scatterAdd2_apply {N A R w : Nat} (wf : ScatterDims.WF ⟨2, ![N, A]⟩ ⟨2, ![R, 1]⟩ ⟨2, ![R, A]⟩ [1] [0] [0] 1)
    (x : (⟨2, ![N, A]⟩ : Shape).Idx → EReal) (idx : IVec ⟨2, ![R, 1]⟩ w) (upd : (⟨2, ![R, A]⟩ : Shape).Idx → EReal)
    (n : Fin N) (a : Fin A) :
    Ideal.hostScatterAdd (dims2 N A R wf) x idx upd (ix2 n a)
      = x (ix2 n a) + ∑ e : Fin R, if (idx (ix2 e (0 : Fin 1))).toInt = (n.val : ℤ) then upd (ix2 e a) else 0 := by
  unfold Ideal.hostScatterAdd
  refine congrArg (fun t => x (ix2 n a) + t) ?_
  rw [Finset.sum_filter, sum_idx2]
  refine Finset.sum_congr rfl fun e _ => ?_
  simp only [resultIdx_eq_some_iff]
  by_cases hv : (idx (ix2 e (0 : Fin 1))).toInt = (n.val : ℤ)
  · simp only [hv, true_and, if_true]
    rw [Finset.sum_eq_single a]
    · simp
    · intro b _ hb; simp [hb]
    · intro h; exact absurd (Finset.mem_univ a) h
  · simp only [hv, false_and, if_false]
    exact Finset.sum_const_zero

/-- The same read for the host's `scatter` with an `add` body, whose ideal instance is that exact sum. -/
theorem host_scatterAdd2_apply {φ : FTy} {N A R w : Nat} (wf : ScatterDims.WF ⟨2, ![N, A]⟩ ⟨2, ![R, 1]⟩ ⟨2, ![R, A]⟩ [1] [0] [0] 1)
    (x : (⟨2, ![N, A]⟩ : Shape).Idx → EReal) (idx : IVec ⟨2, ![R, 1]⟩ w) (upd : (⟨2, ![R, A]⟩ : Shape).Idx → EReal)
    (n : Fin N) (a : Fin A) :
    Host.scatterAdd (F := Ideal) (φ := φ) (dims2 N A R wf) x idx upd (ix2 n a)
      = x (ix2 n a) + ∑ e : Fin R, if (idx (ix2 e (0 : Fin 1))).toInt = (n.val : ℤ) then upd (ix2 e a) else 0 :=
  scatterAdd2_apply wf x idx upd n a

end Idealize.ShloMosaic.RowScatterAdd

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.LibHostSage.lean ====
/-
  The host's spelling of one neighbour-sum layer, as whole arrays over the extended reals.

  A graph on N nodes with R edges is given by two vectors of 32-bit words, the edges' sources and targets.  The host
  aggregates an array h : [N, A] over the edges in three steps: it gathers the rows of h at the sources (a source is
  read signed and clamped into [0, N - 1], as a gather clamps every start index), and scatter-adds the gathered rows
  into an array of zeros at the targets (a target is read signed and NOT clamped: a row whose target is no node is
  dropped).  Both index vectors enter as [R, 1] columns.  Entry (n, a) of the result is therefore the sum, over the
  edges e whose target is n, of h at (source of e, a): the edge sum of h.

  A dense layer is a plain matrix product, plus a bias vector spread over the rows by two broadcasts, cut off below by
  an array of zeros; entry by entry this is relu (x · w + b).
-/
import Idealize.ShloMosaic.PureOps.Ideal
import Idealize.ShloMosaic.PureOps.Ideal.Laws
import Idealize.ShloMosaic.Lib.ValueIdx
import Idealize.ShloMosaic.Lib.Pipeline.Value
import proofs.«155384_j13039520710795_2_alg».proof.Proof.LibRowGather
import proofs.«155384_j13039520710795_2_alg».proof.Proof.LibRowScatterAdd
import proofs.«155384_j13039520710795_2_alg».proof.Proof.LibRegionBlockSpread
import proofs.«155384_j13039520710795_2_alg».proof.Proof.LibPlainDot
import proofs.«155384_j13039520710795_2_alg».proof.Proof.LibDense
import proofs.«155384_j13039520710795_2_alg».proof.Proof.LibEdgeSum

noncomputable section

namespace Idealize.ShloMosaic.HostSage

open Idealize.ShloMosaic Idealize.ShloMosaic.ValueIdx

variable {N A R K Q : ℕ}

/-- An edge's source row: the row number read signed and clamped into [0, N - 1], as the gather does. -/
def srowOf (hN : 0 < N) (srcw : IVec ⟨1, ![R]⟩ 32) : Fin R → Fin N := fun e =>
  RowGather.rowOf N hN (srcw (ix1 e))

/-- An edge's target, read signed and not clamped: the scatter drops what is out of range. -/
def dstOf (dst : IVec ⟨1, ![R]⟩ 32) : Fin R → ℤ := fun e => (dst (ix1 e)).toInt

/-- The scalar word zero spread over a matrix reads that word at every entry: a rank-0 operand has no axis to follow. -/
theorem zeroSplat_apply {n0 n1 : ℕ}
    (bz : (⟨0, ![]⟩ : Shape).BroadcastsInDim ⟨2, ![n0, n1]⟩ (![] : Fin 0 → Fin 2))
    (i : (⟨2, ![n0, n1]⟩ : Shape).Idx) :
    broadcastInDim ⟨2, ![n0, n1]⟩ ![] bz (constant (F := Ideal) ⟨0, ![]⟩ .f32 0x00000000#32) i
      = Ideal.ofBits .f32 0x00000000#32 :=
  broadcastInDim_apply _ bz _ i ValueIdx.ix0 (fun a => a.elim0)

/-- The host's aggregate is the edge sum.  At (n, a) the scatter-add reads the zero it started from plus the updates
of the edges whose target column entry, read signed, is n; the column entry of edge e is the target vector at e, the
update is the gathered row, and the gathered row of edge e is h at the clamped source of e. -/
theorem hostAgg_eq (hN : 0 < N)
    (gwf : GatherDims.WF ⟨2, ![N, A]⟩ ⟨2, ![R, 1]⟩ ⟨2, ![R, A]⟩ [1] [0] [] [0] [] 1 ![1, A])
    (swf : ScatterDims.WF ⟨2, ![N, A]⟩ ⟨2, ![R, 1]⟩ ⟨2, ![R, A]⟩ [1] [0] [0] 1)
    (bz : (⟨0, ![]⟩ : Shape).BroadcastsInDim ⟨2, ![N, A]⟩ (![] : Fin 0 → Fin 2))
    (bc : (⟨1, ![R]⟩ : Shape).BroadcastsInDim ⟨2, ![R, 1]⟩ (![0] : Fin 1 → Fin 2))
    (h : FVec Ideal ⟨2, ![N, A]⟩ .f32) (srcw dst : IVec ⟨1, ![R]⟩ 32) :
    Host.scatterAdd (F := Ideal) (φ := .f32) (RowScatterAdd.dims2 N A R swf)
        (broadcastInDim ⟨2, ![N, A]⟩ ![] bz (constant (F := Ideal) ⟨0, ![]⟩ .f32 0x00000000#32))
        (broadcastInDim ⟨2, ![R, 1]⟩ ![0] bc dst)
        (Host.gather (RowGather.dims2 N A R gwf) h (broadcastInDim ⟨2, ![R, 1]⟩ ![0] bc srcw))
      = EdgeSum.edgeSum h (srowOf hN srcw) (dstOf dst) := by
  funext i
  obtain ⟨n, a, rfl⟩ : ∃ n a, i = ix2 n a := ⟨i 0, i 1, eq_ix2 i⟩
  rw [RowScatterAdd.host_scatterAdd2_apply swf _ _ _ n a, zeroSplat_apply, Ideal.ofBits_zero_f32, zero_add]
  show _ = ∑ e : Fin R, if (dst (ix1 e)).toInt = (n.val : ℤ)
    then h (ix2 (RowGather.rowOf N hN (srcw (ix1 e))) a) else 0
  refine Finset.sum_congr rfl (fun e _ => ?_)
  rw [KeepDims.broadcastInDim_a_a1_apply, RowGather.gather2_apply hN gwf, KeepDims.broadcastInDim_a_a1_apply]

/-- The host's dense layer is relu (x · w + b), entry by entry.  At (p, q) the maximum and the sum are taken entry
by entry, the plain product is the sum over k of x (p, k) * w (k, q), the twice-spread bias is b q, and the spread
zero is the zero word. -/
theorem hostDense_eq (d : DotDims ⟨2, ![N, K]⟩ ⟨2, ![K, Q]⟩ ⟨2, ![N, Q]⟩) (hd : d = DotDims.plain N K Q)
    (x : FVec Ideal ⟨2, ![N, K]⟩ .f32) (w : FVec Ideal ⟨2, ![K, Q]⟩ .f32) (b : FVec Ideal ⟨1, ![Q]⟩ .f32)
    (h1 : (⟨1, ![Q]⟩ : Shape).BroadcastsInDim ⟨2, ![1, Q]⟩ (![1] : Fin 1 → Fin 2))
    (h2 : (⟨2, ![1, Q]⟩ : Shape).BroadcastsInDim ⟨2, ![N, Q]⟩ (![0, 1] : Fin 2 → Fin 2))
    (bz : (⟨0, ![]⟩ : Shape).BroadcastsInDim ⟨2, ![N, Q]⟩ (![] : Fin 0 → Fin 2)) :
    maximumf (addf (Host.dotGeneral d none x w)
        (broadcastInDim ⟨2, ![N, Q]⟩ ![0, 1] h2 (broadcastInDim ⟨2, ![1, Q]⟩ ![1] h1 b)))
        (broadcastInDim ⟨2, ![N, Q]⟩ ![] bz (constant (F := Ideal) ⟨0, ![]⟩ .f32 0x00000000#32))
      = DenseLayer.linRelu x w b := by
  funext i
  obtain ⟨p, q, rfl⟩ : ∃ p q, i = ix2 p q := ⟨i 0, i 1, eq_ix2 i⟩
  rw [maximumf_apply, addf_apply, zeroSplat_apply, DenseLayer.inDimRow_apply b h1 h2 p q,
    DenseLayer.linRelu_apply]
  refine congrArg (fun t => max (t + b (ix1 q)) DenseLayer.zeroWord) ?_
  exact PlainDot.dotGeneral_apply d hd none .single x w p q

end Idealize.ShloMosaic.HostSage

end
-- ==== Proof.LibTake1.lean ====
/-
  A flat gather read at an index. What `x[idx]` of a flat array `x : [N]` at a vector of `R` positions lowers to: a
  gather with the positions as an `[R, 1]` column, the one operand axis collapsed, no offset axes. Result element `r`
  is `x` at position `idx[r, 0]` — read as a signed integer and clamped into `[0, N - 1]`, as the gather clamps every
  start index. With it, two facts about positions that are small natural numbers written as 32-bit words: such a word
  reads back, signed, as the number, and the position it selects is the number itself.
-/
import proofs.«155384_j13039520710795_2_alg».proof.Proof.LibRowGather

noncomputable section

namespace Idealize.ShloMosaic.RowGather

open Idealize.ShloMosaic Idealize.ShloMosaic.ValueIdx

/-- The dimension numbers of a gather from a flat `[N]` by an `[R, 1]` column into `[R]`. -/
abbrev dims1 (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE READ of a flat gather at `r`: the operand at the position `idx[r, 0]`, read signed and clamped into
    `[0, N - 1]`. The one operand axis is in the start index map and collapsed, so the operand coordinate is the clamped
    start alone; the start index is read at `[r, 0]` because the result's one axis is a batch axis reading the start
    indices' axis 0 and the index vector's axis 1 has extent 1. -/
theorem gather1_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (dims1 N R wf) x idx (ix1 r) = x (ix1 (rowOf N hN (idx (ix2 r (0 : Fin 1))))) := by
  unfold Host.gather
  refine congrArg x ?_
  funext ax
  refine Fin.ext ?_
  show (dims1 N R wf).start (ix1 r) idx ax + (dims1 N R wf).batchCoord (ix1 r) ax + (dims1 N R wf).offCoord (ix1 r) ax = _
  rw [GatherDims.batchCoord_eq_zero _ _ _ List.not_mem_nil]
  match ax with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 1) ∈ (dims1 N R wf).startIndexMap from List.mem_singleton.mpr rfl)]
    have hsi : (dims1 N R wf).siIdx (ix1 r) ⟨List.idxOf (⟨0, by decide⟩ : Fin 1) (dims1 N R wf).startIndexMap,
        List.idxOf_lt_length_iff.2 (List.mem_singleton.mpr rfl)⟩ = ix2 r (0 : Fin 1) := by
      funext d; refine Fin.ext ?_
      match d with
      | ⟨0, _⟩ => rfl
      | ⟨1, _⟩ => rfl
    rw [hsi]
    rfl

/-- A natural number below `2 ^ 31`, written as a 32-bit word, reads back signed as itself: it is below `2 ^ 32`, so
    the word's unsigned value is the number, and its top bit is clear, so the signed value is the unsigned one. -/
theorem toInt_ofNat32 {k : Nat} (h : k < 2 ^ 31) : (BitVec.ofNat 32 k).toInt = (k : ℤ) := by
  rw [BitVec.toInt_eq_toNat_of_lt (by rw [BitVec.toNat_ofNat]; omega), BitVec.toNat_ofNat]
  have hk : k % 2 ^ 32 = k := Nat.mod_eq_of_lt (by omega)
  rw [hk]

/-- The position a 32-bit word `k` selects in `[0, N - 1]`, for `k` below `N` and `N` at most `2 ^ 31`, is `k`: the
    word reads signed as `k`, and `k ≤ N - 1` so the clamp does nothing. -/
theorem rowOf_ofNat {N : Nat} (hN : 0 < N) (k : Fin N) (h31 : N ≤ 2 ^ 31) : rowOf N hN (BitVec.ofNat 32 k.val) = k := by
  refine Fin.ext ?_
  have hk : k.val < 2 ^ 31 := lt_of_lt_of_le k.isLt h31
  show min (BitVec.ofNat 32 k.val).toInt.toNat (N - 1) = k.val
  rw [toInt_ofNat32 hk, Int.toNat_natCast]
  have := k.isLt
  omega

end Idealize.ShloMosaic.RowGather

end
-- ==== Proof.LibArgsort.lean ====
/-
  `jnp.argsort` of a flat table: a stable sort along the one axis that carries a second operand (an `iota`) with the
  keys. On a rank-1 shape the two-operand sort reads BOTH operands through one self-map of the positions — the stable
  sorting permutation `perm` of the pairs under the comparator — which is a bijection; carrying an `iota`, the second
  result is that permutation itself, written as 32-bit words. Last, a word fact: a position that is a natural number
  below `2 ^ 31` is non-negative as a signed word, so the "wrap a negative index" select leaves it alone.
-/
import Idealize.ShloMosaic.Lib.SortFacts
import Idealize.ShloMosaic.Lib.ValueIdx

noncomputable section

namespace Idealize.ShloMosaic.Argsort

open Idealize.ShloMosaic

section
variable {n : Nat} {α β : Type} (cmp : α × β → α × β → BitVec 1) (x : (⟨1, ![n]⟩ : Shape).Idx → α)
  (y : (⟨1, ![n]⟩ : Shape).Idx → β)

/-- The stable sorting permutation of the pairs `(x k, y k)` under `cmp`: `perm k` is the position whose pair the sort
    puts at `k`. -/
def perm : Fin n → Fin n :=
  sortedFrom (fun k k' => cmp (x (Shape.Idx.ofFin k), y (Shape.Idx.ofFin k)) (x (Shape.Idx.ofFin k'), y (Shape.Idx.ofFin k')) == 1#1)

/-- It is a bijection: the sorted positions are a rearrangement of all the positions. -/
theorem perm_bijective : Function.Bijective (perm cmp x y) :=
  ⟨sortedFrom_injective _, sortedFrom_surjective _⟩

/-- The first result of the two-operand sort at `j`: the first operand at `perm` of `j`'s coordinate (on a rank-1 shape
    moving along the one axis from any index lands on the index at that coordinate). -/
theorem sort2_fst_apply (j : (⟨1, ![n]⟩ : Shape).Idx) :
    (Host.sort2 ⟨1, ![n]⟩ 0 cmp x y).1 j = x (Shape.Idx.ofFin (perm cmp x y (j 0))) := by
  unfold Host.sort2 perm
  simp

/-- The second result at `j`: the second operand at the same position. -/
theorem sort2_snd_apply (j : (⟨1, ![n]⟩ : Shape).Idx) :
    (Host.sort2 ⟨1, ![n]⟩ 0 cmp x y).2 j = y (Shape.Idx.ofFin (perm cmp x y (j 0))) := by
  unfold Host.sort2 perm
  simp

end

/-- Carrying an `iota`, the second result at `j` is the permutation's value at `j`'s coordinate, as a 32-bit word: the
    `iota` at a position is that position's number. -/
theorem sort2_snd_iota {n : Nat} {α : Type} (cmp : α × BitVec 32 → α × BitVec 32 → BitVec 1)
    (x : (⟨1, ![n]⟩ : Shape).Idx → α) (j : (⟨1, ![n]⟩ : Shape).Idx) :
    (Host.sort2 ⟨1, ![n]⟩ 0 cmp x (iotaInDim ⟨1, ![n]⟩ 32 0)).2 j
      = BitVec.ofNat 32 (perm cmp x (iotaInDim ⟨1, ![n]⟩ 32 0) (j 0)).val := by
  rw [sort2_snd_apply]
  simp only [iotaInDim, Shape.Idx.ofFin_zero]

/-- The rank-1 index at a coordinate, in the two spellings. -/
theorem ofFin_eq_ix1 {n : Nat} (k : Fin n) : Shape.Idx.ofFin k = ValueIdx.ix1 k := by
  funext d
  match d with
  | ⟨0, _⟩ => rfl

/-- A natural number below `2 ^ 31`, written as a 32-bit word, reads back signed as itself. -/
theorem toInt_ofNat_of_lt {k : Nat} (h : k < 2 ^ 31) : (BitVec.ofNat 32 k).toInt = (k : ℤ) := by
  rw [BitVec.toInt_eq_toNat_of_lt (by rw [BitVec.toNat_ofNat]; omega), BitVec.toNat_ofNat]
  have hk : k % 2 ^ 32 = k := Nat.mod_eq_of_lt (by omega)
  rw [hk]

/-- Such a word is not below zero as a signed word. -/
theorem slt_zero_ofNat {k : Nat} (h : k < 2 ^ 31) : IntOp.cmpi .slt (BitVec.ofNat 32 k) 0#32 = 0#1 := by
  have hs : (BitVec.ofNat 32 k).slt 0#32 = false := by
    unfold BitVec.slt
    rw [decide_eq_false_iff_not, toInt_ofNat_of_lt h]
    simp
  show BitVec.ofBool ((BitVec.ofNat 32 k).slt 0#32) = 0#1
  rw [hs]
  rfl

/-- A non-negative position is not wrapped: the select "if `p < 0` then `p + c` else `p`" at a word `p` that is a
    natural number below `2 ^ 31` is `p`. -/
theorem wrap_ofNat {k : Nat} (h : k < 2 ^ 31) (c : BitVec 32) :
    Scalar.select (IntOp.cmpi .slt (BitVec.ofNat 32 k) 0#32) (BitVec.ofNat 32 k + c) (BitVec.ofNat 32 k)
      = BitVec.ofNat 32 k := by
  rw [slt_zero_ofNat h]
  exact ValueIdx.select_zero _ _

/-- The same with the sum spelled as the integer `add` operation. -/
theorem wrap_ofNat_addi {k : Nat} (h : k < 2 ^ 31) (c : BitVec 32) :
    Scalar.select (IntOp.cmpi .slt (BitVec.ofNat 32 k) 0#32) (IntOp.addi (BitVec.ofNat 32 k) c) (BitVec.ofNat 32 k)
      = BitVec.ofNat 32 k := by
  rw [slt_zero_ofNat h]
  exact ValueIdx.select_zero _ _

end Idealize.ShloMosaic.Argsort

end
-- ==== Proof.LibSortedTake.lean ====
/-
  `x[argsort(keys)]` of flat 32-bit integer arrays, as the host writes it, read at an index. The host sorts the keys
  stably carrying an `iota`, so the second result holds at place `e` the position `sortedPos e` whose key the sort puts
  there; it then wraps negative positions (adding the array's length), turns the positions into a column and gathers.
  A position is a natural number below the length, hence non-negative as a signed word and in range: the wrap and the
  gather's clamp both leave it alone, and the gather reads the array at `sortedPos e`. The positions form a bijection.
-/
import proofs.«155384_j13039520710795_2_alg».proof.Proof.LibTake1
import proofs.«155384_j13039520710795_2_alg».proof.Proof.LibArgsort
import proofs.«155384_j13039520710795_2_alg».proof.Proof.LibRegionBlockSpread

noncomputable section

namespace Idealize.ShloMosaic.SortedTake

open Idealize.ShloMosaic Idealize.ShloMosaic.ValueIdx

/-- The position whose key a stable sort of `keys` under `cmp` (carrying an `iota`) puts at place `e`. -/
def sortedPos {n : ℕ} (cmp : BitVec 32 × BitVec 32 → BitVec 32 × BitVec 32 → BitVec 1) (keys : IVec ⟨1, ![n]⟩ 32) :
    Fin n → Fin n :=
  Argsort.perm cmp keys (iotaInDim ⟨1, ![n]⟩ 32 0)

/-- The sorted positions are a rearrangement of all the positions. -/
theorem sortedPos_bijective {n : ℕ} (cmp : BitVec 32 × BitVec 32 → BitVec 32 × BitVec 32 → BitVec 1)
    (keys : IVec ⟨1, ![n]⟩ 32) : Function.Bijective (sortedPos cmp keys) :=
  Argsort.perm_bijective cmp keys (iotaInDim ⟨1, ![n]⟩ 32 0)

/-- The sort's second result at place `e` is the word of `sortedPos e`: the carried `iota` at a position is its number. -/
theorem sort2_snd_eq_sortedPos {n : ℕ} (cmp : BitVec 32 × BitVec 32 → BitVec 32 × BitVec 32 → BitVec 1)
    (keys : IVec ⟨1, ![n]⟩ 32) (e : Fin n) :
    (Host.sort2 ⟨1, ![n]⟩ 0 cmp keys (iotaInDim ⟨1, ![n]⟩ 32 0)).2 (ix1 e) = BitVec.ofNat 32 (sortedPos cmp keys e).val := by
  rw [Argsort.sort2_snd_iota]
  rfl

/-- THE READ, with the table of positions `P` named: whenever `P` is the sort's second result, the wrapped positions,
    made a column, gather `v` at `sortedPos e`. At place `e` the position word is a natural number below `n ≤ 2 ^ 31`: it
    is not negative, so the select keeps it; and it is at most `n - 1`, so the gather's clamp keeps it. -/
theorem take_argsort_apply' {n : ℕ} (hn : 0 < n) (h31 : n ≤ 2 ^ 31)
    (cmp : BitVec 32 × BitVec 32 → BitVec 32 × BitVec 32 → BitVec 1) (keys v : IVec ⟨1, ![n]⟩ 32)
    (gwf : GatherDims.WF ⟨1, ![n]⟩ ⟨2, ![n, 1]⟩ ⟨1, ![n]⟩ [] [0] [] [0] [] 1 ![1])
    (b0 : (⟨0, ![]⟩ : Shape).BroadcastsInDim ⟨1, ![n]⟩ (![] : Fin 0 → Fin 1))
    (bc : (⟨1, ![n]⟩ : Shape).BroadcastsInDim ⟨2, ![n, 1]⟩ (![0] : Fin 1 → Fin 2))
    (nn : BitVec 32) (P : IVec ⟨1, ![n]⟩ 32)
    (hP : P = (Host.sort2 ⟨1, ![n]⟩ 0 cmp keys (iotaInDim ⟨1, ![n]⟩ 32 0)).2) (e : Fin n) :
    Host.gather (RowGather.dims1 n n gwf) v
        (broadcastInDim ⟨2, ![n, 1]⟩ ![0] bc
          (select (cmpi .slt P (broadcastInDim ⟨1, ![n]⟩ ![] b0 (constantI ⟨0, ![]⟩ 32 0#32)))
            (addi P (broadcastInDim ⟨1, ![n]⟩ ![] b0 (constantI ⟨0, ![]⟩ 32 nn))) P)) (ix1 e)
      = v (ix1 (sortedPos cmp keys e)) := by
  have hlt : (sortedPos cmp keys e).val < 2 ^ 31 := lt_of_lt_of_le (sortedPos cmp keys e).isLt h31
  have hPe : P (ix1 e) = BitVec.ofNat 32 (sortedPos cmp keys e).val := by
    rw [hP]; exact sort2_snd_eq_sortedPos cmp keys e
  have hsel : select (cmpi .slt P (broadcastInDim ⟨1, ![n]⟩ ![] b0 (constantI ⟨0, ![]⟩ 32 0#32)))
      (addi P (broadcastInDim ⟨1, ![n]⟩ ![] b0 (constantI ⟨0, ![]⟩ 32 nn))) P (ix1 e)
      = BitVec.ofNat 32 (sortedPos cmp keys e).val := by
    show Scalar.select (IntOp.cmpi .slt (P (ix1 e)) 0#32) (IntOp.addi (P (ix1 e)) nn) (P (ix1 e)) = _
    rw [hPe]
    exact Argsort.wrap_ofNat_addi hlt nn
  rw [RowGather.gather1_apply hn gwf, KeepDims.broadcastInDim_a_a1_apply]
  refine congrArg (fun k => v (ix1 k)) ?_
  exact (congrArg (RowGather.rowOf n hn) hsel).trans (RowGather.rowOf_ofNat hn _ h31)

/-- THE READ, with the table of positions written out as the host writes it. -/
theorem take_argsort_apply {n : ℕ} (hn : 0 < n) (h31 : n ≤ 2 ^ 31)
    (cmp : BitVec 32 × BitVec 32 → BitVec 32 × BitVec 32 → BitVec 1) (keys v : IVec ⟨1, ![n]⟩ 32)
    (gwf : GatherDims.WF ⟨1, ![n]⟩ ⟨2, ![n, 1]⟩ ⟨1, ![n]⟩ [] [0] [] [0] [] 1 ![1])
    (b0 : (⟨0, ![]⟩ : Shape).BroadcastsInDim ⟨1, ![n]⟩ (![] : Fin 0 → Fin 1))
    (bc : (⟨1, ![n]⟩ : Shape).BroadcastsInDim ⟨2, ![n, 1]⟩ (![0] : Fin 1 → Fin 2))
    (nn : BitVec 32) (e : Fin n) :
    Host.gather (RowGather.dims1 n n gwf) v
        (broadcastInDim ⟨2, ![n, 1]⟩ ![0] bc
          (select (cmpi .slt (Host.sort2 ⟨1, ![n]⟩ 0 cmp keys (iotaInDim ⟨1, ![n]⟩ 32 0)).2
              (broadcastInDim ⟨1, ![n]⟩ ![] b0 (constantI ⟨0, ![]⟩ 32 0#32)))
            (addi (Host.sort2 ⟨1, ![n]⟩ 0 cmp keys (iotaInDim ⟨1, ![n]⟩ 32 0)).2
              (broadcastInDim ⟨1, ![n]⟩ ![] b0 (constantI ⟨0, ![]⟩ 32 nn)))
            (Host.sort2 ⟨1, ![n]⟩ 0 cmp keys (iotaInDim ⟨1, ![n]⟩ 32 0)).2)) (ix1 e)
      = v (ix1 (sortedPos cmp keys e)) :=
  take_argsort_apply' hn h31 cmp keys v gwf b0 bc nn _ rfl e

attribute [irreducible] sortedPos

end Idealize.ShloMosaic.SortedTake

end
-- ==== Proof.LibSortedEdges.lean ====
/-
  A neighbour sum over the edge list sorted by target is the neighbour sum over the edge list as given. The host
  sorts the targets stably carrying an `iota`, wraps the resulting positions and gathers both the sources and the
  targets at them: edge `e` of the sorted list is edge `σ e` of the given one, for `σ` the sorting permutation of the
  targets. The wrap of a source word is entry by entry, so the sorted list's source rows and targets are the given
  list's read through `σ`; a neighbour sum is a finite sum over the edges, and `σ` is a bijection of the edge numbers,
  so the two sums agree.
-/
import proofs.«155384_j13039520710795_2_alg».proof.Proof.LibSortedTake
import proofs.«155384_j13039520710795_2_alg».proof.Proof.LibHostSage
import proofs.«155384_j13039520710795_2_alg».proof.Proof.LibEdgeSum

noncomputable section

namespace Idealize.ShloMosaic.SortedEdges

open Idealize.ShloMosaic Idealize.ShloMosaic.ValueIdx

/-- THE SUM OVER THE SORTED EDGES, with the positions `P`, the wrapped positions `POS` and the sorted sources `SRC` and
    targets `DST` named and known by equations. Both sorted arrays read the given ones at `σ e`, `σ` the sorting
    permutation of the targets; so the left side is the right side's sum reindexed by the bijection `σ`. -/
theorem edgeSum_sorted' {N A n : ℕ} (hN : 0 < N) (hn : 0 < n) (h31 : n ≤ 2 ^ 31)
    (cmp : BitVec 32 × BitVec 32 → BitVec 32 × BitVec 32 → BitVec 1) (src dst : IVec ⟨1, ![n]⟩ 32)
    (gwf : GatherDims.WF ⟨1, ![n]⟩ ⟨2, ![n, 1]⟩ ⟨1, ![n]⟩ [] [0] [] [0] [] 1 ![1])
    (b0 : (⟨0, ![]⟩ : Shape).BroadcastsInDim ⟨1, ![n]⟩ (![] : Fin 0 → Fin 1))
    (bc : (⟨1, ![n]⟩ : Shape).BroadcastsInDim ⟨2, ![n, 1]⟩ (![0] : Fin 1 → Fin 2))
    (nn NNw : BitVec 32) (h : (⟨2, ![N, A]⟩ : Shape).Idx → EReal)
    (P POS SRC DST : IVec ⟨1, ![n]⟩ 32)
    (hP : P = (Host.sort2 ⟨1, ![n]⟩ 0 cmp dst (iotaInDim ⟨1, ![n]⟩ 32 0)).2)
    (hPOS : POS = select (cmpi .slt P (broadcastInDim ⟨1, ![n]⟩ ![] b0 (constantI ⟨0, ![]⟩ 32 0#32)))
      (addi P (broadcastInDim ⟨1, ![n]⟩ ![] b0 (constantI ⟨0, ![]⟩ 32 nn))) P)
    (hS : SRC = Host.gather (RowGather.dims1 n n gwf) src (broadcastInDim ⟨2, ![n, 1]⟩ ![0] bc POS))
    (hD : DST = Host.gather (RowGather.dims1 n n gwf) dst (broadcastInDim ⟨2, ![n, 1]⟩ ![0] bc POS)) :
    EdgeSum.edgeSum h
        (HostSage.srowOf hN (select (cmpi .slt SRC (broadcastInDim ⟨1, ![n]⟩ ![] b0 (constantI ⟨0, ![]⟩ 32 0#32)))
          (addi SRC (broadcastInDim ⟨1, ![n]⟩ ![] b0 (constantI ⟨0, ![]⟩ 32 NNw))) SRC))
        (HostSage.dstOf DST)
      = EdgeSum.edgeSum h
        (fun e => RowGather.rowOf N hN
          (Scalar.select (IntOp.cmpi .slt (src (ix1 e)) 0#32) (IntOp.addi (src (ix1 e)) NNw) (src (ix1 e))))
        (fun e => (dst (ix1 e)).toInt) := by
  have hSe : ∀ e : Fin n, SRC (ix1 e) = src (ix1 (SortedTake.sortedPos cmp dst e)) := fun e => by
    rw [hS, hPOS]
    exact SortedTake.take_argsort_apply' hn h31 cmp dst src gwf b0 bc nn P hP e
  have hDe : ∀ e : Fin n, DST (ix1 e) = dst (ix1 (SortedTake.sortedPos cmp dst e)) := fun e => by
    rw [hD, hPOS]
    exact SortedTake.take_argsort_apply' hn h31 cmp dst dst gwf b0 bc nn P hP e
  refine Eq.trans ?_ (EdgeSum.edgeSum_comp_bij h _ _ (SortedTake.sortedPos cmp dst)
    (SortedTake.sortedPos_bijective cmp dst))
  refine congrArg₂ (EdgeSum.edgeSum h) ?_ ?_
  · funext e
    show RowGather.rowOf N hN
        (Scalar.select (IntOp.cmpi .slt (SRC (ix1 e)) 0#32) (IntOp.addi (SRC (ix1 e)) NNw) (SRC (ix1 e))) = _
    rw [hSe e]
  · funext e
    show (DST (ix1 e)).toInt = _
    rw [hDe e]

/-- THE SUM OVER THE SORTED EDGES, with every array written out as the host writes it. -/
theorem edgeSum_sorted {N A n : ℕ} (hN : 0 < N) (hn : 0 < n) (h31 : n ≤ 2 ^ 31)
    (cmp : BitVec 32 × BitVec 32 → BitVec 32 × BitVec 32 → BitVec 1) (src dst : IVec ⟨1, ![n]⟩ 32)
    (gwf : GatherDims.WF ⟨1, ![n]⟩ ⟨2, ![n, 1]⟩ ⟨1, ![n]⟩ [] [0] [] [0] [] 1 ![1])
    (b0 : (⟨0, ![]⟩ : Shape).BroadcastsInDim ⟨1, ![n]⟩ (![] : Fin 0 → Fin 1))
    (bc : (⟨1, ![n]⟩ : Shape).BroadcastsInDim ⟨2, ![n, 1]⟩ (![0] : Fin 1 → Fin 2))
    (nn NNw : BitVec 32) (h : (⟨2, ![N, A]⟩ : Shape).Idx → EReal) :
    EdgeSum.edgeSum h
        (HostSage.srowOf hN
          (select
            (cmpi .slt
              (Host.gather (RowGather.dims1 n n gwf) src (broadcastInDim ⟨2, ![n, 1]⟩ ![0] bc
                (select (cmpi .slt (Host.sort2 ⟨1, ![n]⟩ 0 cmp dst (iotaInDim ⟨1, ![n]⟩ 32 0)).2
                    (broadcastInDim ⟨1, ![n]⟩ ![] b0 (constantI ⟨0, ![]⟩ 32 0#32)))
                  (addi (Host.sort2 ⟨1, ![n]⟩ 0 cmp dst (iotaInDim ⟨1, ![n]⟩ 32 0)).2
                    (broadcastInDim ⟨1, ![n]⟩ ![] b0 (constantI ⟨0, ![]⟩ 32 nn)))
                  (Host.sort2 ⟨1, ![n]⟩ 0 cmp dst (iotaInDim ⟨1, ![n]⟩ 32 0)).2)))
              (broadcastInDim ⟨1, ![n]⟩ ![] b0 (constantI ⟨0, ![]⟩ 32 0#32)))
            (addi
              (Host.gather (RowGather.dims1 n n gwf) src (broadcastInDim ⟨2, ![n, 1]⟩ ![0] bc
                (select (cmpi .slt (Host.sort2 ⟨1, ![n]⟩ 0 cmp dst (iotaInDim ⟨1, ![n]⟩ 32 0)).2
                    (broadcastInDim ⟨1, ![n]⟩ ![] b0 (constantI ⟨0, ![]⟩ 32 0#32)))
                  (addi (Host.sort2 ⟨1, ![n]⟩ 0 cmp dst (iotaInDim ⟨1, ![n]⟩ 32 0)).2
                    (broadcastInDim ⟨1, ![n]⟩ ![] b0 (constantI ⟨0, ![]⟩ 32 nn)))
                  (Host.sort2 ⟨1, ![n]⟩ 0 cmp dst (iotaInDim ⟨1, ![n]⟩ 32 0)).2)))
              (broadcastInDim ⟨1, ![n]⟩ ![] b0 (constantI ⟨0, ![]⟩ 32 NNw)))
            (Host.gather (RowGather.dims1 n n gwf) src (broadcastInDim ⟨2, ![n, 1]⟩ ![0] bc
              (select (cmpi .slt (Host.sort2 ⟨1, ![n]⟩ 0 cmp dst (iotaInDim ⟨1, ![n]⟩ 32 0)).2
                  (broadcastInDim ⟨1, ![n]⟩ ![] b0 (constantI ⟨0, ![]⟩ 32 0#32)))
                (addi (Host.sort2 ⟨1, ![n]⟩ 0 cmp dst (iotaInDim ⟨1, ![n]⟩ 32 0)).2
                  (broadcastInDim ⟨1, ![n]⟩ ![] b0 (constantI ⟨0, ![]⟩ 32 nn)))
                (Host.sort2 ⟨1, ![n]⟩ 0 cmp dst (iotaInDim ⟨1, ![n]⟩ 32 0)).2)))))
        (HostSage.dstOf
          (Host.gather (RowGather.dims1 n n gwf) dst (broadcastInDim ⟨2, ![n, 1]⟩ ![0] bc
            (select (cmpi .slt (Host.sort2 ⟨1, ![n]⟩ 0 cmp dst (iotaInDim ⟨1, ![n]⟩ 32 0)).2
                (broadcastInDim ⟨1, ![n]⟩ ![] b0 (constantI ⟨0, ![]⟩ 32 0#32)))
              (addi (Host.sort2 ⟨1, ![n]⟩ 0 cmp dst (iotaInDim ⟨1, ![n]⟩ 32 0)).2
                (broadcastInDim ⟨1, ![n]⟩ ![] b0 (constantI ⟨0, ![]⟩ 32 nn)))
              (Host.sort2 ⟨1, ![n]⟩ 0 cmp dst (iotaInDim ⟨1, ![n]⟩ 32 0)).2))))
      = EdgeSum.edgeSum h
        (fun e => RowGather.rowOf N hN
          (Scalar.select (IntOp.cmpi .slt (src (ix1 e)) 0#32) (IntOp.addi (src (ix1 e)) NNw) (src (ix1 e))))
        (fun e => (dst (ix1 e)).toInt) :=
  edgeSum_sorted' hN hn h31 cmp src dst gwf b0 bc nn NNw h _ _ _ _ rfl rfl rfl rfl

end Idealize.ShloMosaic.SortedEdges

end
-- ==== Proof.KernelSpec.lean ====
/-
  The idealized kernel's result, as a function of its arguments, is the specification, when the float arguments are
  real numbers.

  The kernel's host steps list the edges in the order of their targets and then sum, for every node, the rows at the
  sources of the edges into it. A sum over the edges does not depend on the order the edges are listed in, so each of
  these neighbour sums is the specification's, over the edges as given. The first two rounds are then the
  specification's rounds as they stand (a bias vector laid out as a row reads the vector). In the third round the
  kernel multiplies by the weight BEFORE the neighbour sum; over real entries the product distributes over the sum,
  so multiplying first and summing after is summing first and multiplying after, which is the specification's order.
-/
import proofs.«155384_j13039520710795_2_alg».proof.Proof.KernelTerms
import proofs.«155384_j13039520710795_2_alg».proof.Proof.Spec
import proofs.«155384_j13039520710795_2_alg».proof.Proof.LibHostSage
import proofs.«155384_j13039520710795_2_alg».proof.Proof.LibSortedEdges
import Idealize.ShloMosaic.Lib.ValueLayout

noncomputable section

namespace Cert.KernelIdeal.Named

open Cert.KernelIdeal Cert.KernelIdeal.Rows Cert.KernelIdeal.Facts₀ Cert.KernelIdeal.Facts
open Idealize.ShloMosaic Idealize.ShloMosaic.ValueIdx Idealize.ShloMosaic.EdgeSum Idealize.ShloMosaic.DenseLayer

/-! ## The host's neighbour sums are the specification's -/

/-- The host's 128-wide aggregate of any source and target vectors is the edge sum over the normalised, clamped
    sources and the signed targets: the gather and the scatter-add read at an entry. -/
theorem agg128_host (h : FVec Ideal S100000x128 .f32) (s d : IVec S1600000 32) :
    agg128 h s d = edgeSum h
      (HostSage.srowOf (N := 100000) (by decide)
        (select (cmpi .slt s (broadcastInDim S1600000 ![] bcast_S_S1600000 (constantI S_ 32 0#32)))
          (addi s (broadcastInDim S1600000 ![] bcast_S_S1600000 (constantI S_ 32 100000#32))) s))
      (HostSage.dstOf d) := by
  unfold agg128
  exact HostSage.hostAgg_eq (N := 100000) (A := 128) (R := 1600000) (by decide)
    gather_S100000x128_S1600000x1_S1600000x128_1_0_n_n_0_1_1128_wf
    scatter_S100000x128_S1600000x1_S1600000x128_1_0_0_1_wf bcast_S_S100000x128 bcast_S1600000_S1600000x1_0 h _ d

/-- The same for 64-wide rows. -/
theorem agg64_host (h : FVec Ideal S100000x64 .f32) (s d : IVec S1600000 32) :
    agg64 h s d = edgeSum h
      (HostSage.srowOf (N := 100000) (by decide)
        (select (cmpi .slt s (broadcastInDim S1600000 ![] bcast_S_S1600000 (constantI S_ 32 0#32)))
          (addi s (broadcastInDim S1600000 ![] bcast_S_S1600000 (constantI S_ 32 100000#32))) s))
      (HostSage.dstOf d) := by
  unfold agg64
  exact HostSage.hostAgg_eq (N := 100000) (A := 64) (R := 1600000) (by decide)
    gather_S100000x64_S1600000x1_S1600000x64_1_0_n_n_0_1_164_wf
    scatter_S100000x64_S1600000x1_S1600000x64_1_0_0_1_wf bcast_S_S100000x64 bcast_S1600000_S1600000x1_0 h _ d

/-- The 128-wide neighbour sum over the edges listed in the order of their targets is the specification's neighbour
    sum over the edges as given: the listing is a bijection of the edge numbers. -/
theorem agg128_eq (h : FVec Ideal S100000x128 .f32) (a1 a2 : IVec S1600000 32) :
    agg128 h (sorted a1 a2) (sorted a2 a2) = edgeSum h (Cert.Sage.srcRow a1) (Cert.Sage.dstNode a2) := by
  rw [agg128_host]
  exact SortedEdges.edgeSum_sorted' (N := 100000) (A := 128) (n := 1600000) (by decide) (by decide) (by norm_num)
    comparator_i32_i32_d0 a1 a2 gather_S1600000_S1600000x1_S1600000_n_0_n_n_0_1_1_wf bcast_S_S1600000
    bcast_S1600000_S1600000x1_0 1600000#32 100000#32 h (perm a2) (pos a2) (sorted a1 a2) (sorted a2 a2)
    rfl rfl rfl rfl

/-- The same for 64-wide rows. -/
theorem agg64_eq (h : FVec Ideal S100000x64 .f32) (a1 a2 : IVec S1600000 32) :
    agg64 h (sorted a1 a2) (sorted a2 a2) = edgeSum h (Cert.Sage.srcRow a1) (Cert.Sage.dstNode a2) := by
  rw [agg64_host]
  exact SortedEdges.edgeSum_sorted' (N := 100000) (A := 64) (n := 1600000) (by decide) (by decide) (by norm_num)
    comparator_i32_i32_d0 a1 a2 gather_S1600000_S1600000x1_S1600000_n_0_n_n_0_1_1_wf bcast_S_S1600000
    bcast_S1600000_S1600000x1_0 1600000#32 100000#32 h (perm a2) (pos a2) (sorted a1 a2) (sorted a2 a2)
    rfl rfl rfl rfl

attribute [local irreducible] perm sorted

/-! ## A bias vector laid out as a row -/

/-- The 128-wide bias row reads the bias vector. -/
theorem row128_apply (b : FVec Ideal S128 .f32) (q : Fin 128) : row128 b (ix2 (0 : Fin 1) q) = b (ix1 q) :=
  shapeCast_a_1a_apply b shapeCasts_S128_S1x128 0 q

/-- The 64-wide bias row reads the bias vector. -/
theorem row64_apply (b : FVec Ideal S64 .f32) (q : Fin 64) : row64 b (ix2 (0 : Fin 1) q) = b (ix1 q) :=
  shapeCast_a_1a_apply b shapeCasts_S64_S1x64 0 q

/-- A dense layer whose bias is the row laid out from a vector is the dense layer with that vector. -/
theorem rowRelu_row128 (x : FVec Ideal S100000x128 .f32) (w : FVec Ideal S128x128 .f32) (b : FVec Ideal S128 .f32) :
    rowRelu x w (row128 b) = linRelu x w b := by
  funext i
  show max (∑ k : Fin 128, x (ix2 (i 0) k) * w (ix2 k (i 1)) + row128 b (ix2 (0 : Fin 1) (i 1))) zeroWord
    = max (∑ k : Fin 128, x (ix2 (i 0) k) * w (ix2 k (i 1)) + b (ix1 (i 1))) zeroWord
  refine congrArg (fun t => max (∑ k : Fin 128, x (ix2 (i 0) k) * w (ix2 k (i 1)) + t) zeroWord) ?_
  exact row128_apply b (i 1)

/-! ## The result -/

/-- The third round: multiplying by the weight, summing over the neighbours, then adding the bias row and cutting off
    at zero, is the dense layer of the neighbour sum, over real entries. -/
theorem biasRelu_agg (h2 : FVec Ideal S100000x128 .f32) (a7 : FVec Ideal S128x64 .f32) (a8 : FVec Ideal S64 .f32)
    (hh2 : IsReal h2) (h7 : IsReal a7) (s : Fin 1600000 → Fin 100000) (d : Fin 1600000 → ℤ) :
    biasRelu (edgeSum (mm h2 a7) s d) (row64 a8) = linRelu (edgeSum h2 s d) a7 a8 := by
  rw [← mm_edgeSum h2 a7 hh2 h7 s d, linRelu_eq_mm]
  funext i
  show max (mm (edgeSum h2 s d) a7 i + row64 a8 (ix2 (0 : Fin 1) (i 1))) zeroWord
    = max (mm (edgeSum h2 s d) a7 i + a8 (ix1 (i 1))) zeroWord
  refine congrArg (fun t => max (mm (edgeSum h2 s d) a7 i + t) zeroWord) ?_
  exact row64_apply a8 (i 1)

/-- THE KERNEL'S RESULT IS THE SPECIFICATION, for real float arguments. The first two rounds' outputs are real (edge
    sums and dense layers of reals are real), which is what the third round's exchange of product and sum needs. -/
theorem kout_eq_out (a0 : FVec Ideal S100000x128 .f32) (a1 a2 : IVec S1600000 32) (a3 : FVec Ideal S128x128 .f32)
    (a4 : FVec Ideal S128 .f32) (a5 : FVec Ideal S128x128 .f32) (a6 : FVec Ideal S128 .f32)
    (a7 : FVec Ideal S128x64 .f32) (a8 : FVec Ideal S64 .f32)
    (h0 : IsReal a0) (h3 : IsReal a3) (h4 : IsReal a4) (h5 : IsReal a5) (h6 : IsReal a6) (h7 : IsReal a7) :
    kout a0 a1 a2 a3 a4 a5 a6 a7 a8 = Cert.Sage.out a0 a1 a2 a3 a4 a5 a6 a7 a8 := by
  have hh1 : IsReal (linRelu (edgeSum a0 (Cert.Sage.srcRow a1) (Cert.Sage.dstNode a2)) a3 a4) :=
    isReal_linRelu _ _ _ (isReal_edgeSum h0) h3 h4
  have hh2 : IsReal (linRelu (edgeSum (linRelu (edgeSum a0 (Cert.Sage.srcRow a1) (Cert.Sage.dstNode a2)) a3 a4)
      (Cert.Sage.srcRow a1) (Cert.Sage.dstNode a2)) a5 a6) :=
    isReal_linRelu _ _ _ (isReal_edgeSum hh1) h5 h6
  unfold kout Cert.Sage.out Cert.Sage.round
  rw [agg128_eq, rowRelu_row128, agg128_eq, rowRelu_row128, agg64_eq]
  exact biasRelu_agg _ a7 a8 hh2 h7 _ _

end Cert.KernelIdeal.Named

end
-- ==== Proof.RefValue.lean ====
/-
  The reference program's run, with its result stated as the specification.

  The program computes three rounds of one host layer.  A layer takes node rows H : [100000, 128], the edges' source
  and target words a1, a2 : [1600000], a weight matrix W : [128, Q] and a bias B : [Q].  It normalises each source
  (a negative one counts from the end: + 100000), gathers the rows of H at the sources, scatter-adds the gathered rows
  into zeros at the targets, multiplies by W, adds B spread over the rows, and takes the maximum with zero.

  The gather's and the scatter's dimension numbers are those of a row gather and a row scatter-add, and the product's
  are the plain ones, so the aggregate is the edge sum of H over the normalised, clamped sources and the signed
  targets, and the rest is the dense layer with its ReLU: one layer is one round of the specification.  The
  program's result is the three-fold nesting of the layer, the specification's output the three-fold nesting of the
  round.
-/
import proofs.«155384_j13039520710795_2_alg».proof.Proof.Gen.ReferenceIdeal.Run
import proofs.«155384_j13039520710795_2_alg».proof.Proof.LibHostSage
import proofs.«155384_j13039520710795_2_alg».proof.Proof.Spec

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- The program's gather record has the dimension numbers of a row gather. -/
theorem gather_eq : gather_S100000x128_S1600000x1_S1600000x128_1_0_n_n_0_1_1128
    = RowGather.dims2 100000 128 1600000 Gen.gather_S100000x128_S1600000x1_S1600000x128_1_0_n_n_0_1_1128_wf := rfl

/-- The program's scatter record has the dimension numbers of a row scatter-add. -/
theorem scatter_eq : scatter_S100000x128_S1600000x1_S1600000x128_1_0_0_1
    = RowScatterAdd.dims2 100000 128 1600000 Gen.scatter_S100000x128_S1600000x1_S1600000x128_1_0_0_1_wf := rfl

/-- The 128-wide product's record is the plain one. -/
theorem dot128_eq : dot_S100000x128_S128x128_S100000x128_1_0_0_1_n_n = DotDims.plain 100000 128 128 := rfl

/-- The 64-wide product's record is the plain one. -/
theorem dot64_eq : dot_S100000x128_S128x64_S100000x64_1_0_0_1_n_n = DotDims.plain 100000 128 64 := rfl

/-- The normalised sources, clamped as the gather clamps them, are the specification's source rows: comparison,
sum, choice and the spread constants are taken word by word. -/
theorem srow_eq (a1 : IVec S1600000 32) :
    HostSage.srowOf (N := 100000) (by decide)
        (select (cmpi .slt a1 (broadcastInDim S1600000 ![] bcast_S_S1600000 (constantI S_ 32 0#32)))
          (addi a1 (broadcastInDim S1600000 ![] bcast_S_S1600000 (constantI S_ 32 100000#32))) a1)
      = Cert.Sage.srcRow a1 := rfl

/-- The targets read signed are the specification's target nodes. -/
theorem dst_eq (a2 : IVec S1600000 32) : HostSage.dstOf a2 = Cert.Sage.dstNode a2 := rfl

/-- One host layer is one round of the specification, for any output width Q: the aggregate is the edge sum, the
rest the dense layer. -/
theorem layer_eq {Q : ℕ} (d : DotDims S100000x128 ⟨2, ![128, Q]⟩ ⟨2, ![100000, Q]⟩)
    (hd : d = DotDims.plain 100000 128 Q)
    (h1 : (⟨1, ![Q]⟩ : Shape).BroadcastsInDim ⟨2, ![1, Q]⟩ (![1] : Fin 1 → Fin 2))
    (h2 : (⟨2, ![1, Q]⟩ : Shape).BroadcastsInDim ⟨2, ![100000, Q]⟩ (![0, 1] : Fin 2 → Fin 2))
    (bz : (⟨0, ![]⟩ : Shape).BroadcastsInDim ⟨2, ![100000, Q]⟩ (![] : Fin 0 → Fin 2))
    (H : FVec Ideal S100000x128 .f32) (a1 a2 : IVec S1600000 32)
    (W : FVec Ideal ⟨2, ![128, Q]⟩ .f32) (B : FVec Ideal ⟨1, ![Q]⟩ .f32) :
    maximumf (addf (Host.dotGeneral d none (Host.scatterAdd scatter_S100000x128_S1600000x1_S1600000x128_1_0_0_1
      (broadcastInDim S100000x128 ![] bcast_S_S100000x128 (constant S_ .f32 0x00000000#32)) (broadcastInDim
      S1600000x1 ![0] bcast_S1600000_S1600000x1_0 a2) (Host.gather
      gather_S100000x128_S1600000x1_S1600000x128_1_0_n_n_0_1_1128 H (broadcastInDim S1600000x1 ![0]
      bcast_S1600000_S1600000x1_0 (select (cmpi .slt a1 (broadcastInDim S1600000 ![] bcast_S_S1600000 (constantI
      S_ 32 0#32))) (addi a1 (broadcastInDim S1600000 ![] bcast_S_S1600000 (constantI S_ 32 100000#32))) a1))))
      W) (broadcastInDim ⟨2, ![100000, Q]⟩ ![0, 1] h2 (broadcastInDim ⟨2, ![1, Q]⟩ ![1] h1 B))) (broadcastInDim
      ⟨2, ![100000, Q]⟩ ![] bz (constant S_ .f32 0x00000000#32))
      = Cert.Sage.round H a1 a2 W B := by
  rw [gather_eq, scatter_eq, HostSage.hostAgg_eq (N := 100000) (A := 128) (R := 1600000) (by decide),
    HostSage.hostDense_eq d hd, srow_eq, dst_eq]
  rfl

/-- The program's result term is the specification's output: three layers, three rounds. -/
theorem result_eq (a0 : FVec Ideal S100000x128 .f32) (a1 a2 : IVec S1600000 32) (a3 : FVec Ideal S128x128 .f32)
    (a4 : FVec Ideal S128 .f32) (a5 : FVec Ideal S128x128 .f32) (a6 : FVec Ideal S128 .f32)
    (a7 : FVec Ideal S128x64 .f32) (a8 : FVec Ideal S64 .f32) :
    maximumf (addf (Host.dotGeneral dot_S100000x128_S128x64_S100000x64_1_0_0_1_n_n none (Host.scatterAdd
      scatter_S100000x128_S1600000x1_S1600000x128_1_0_0_1 (broadcastInDim S100000x128 ![] bcast_S_S100000x128
      (constant S_ .f32 0x00000000#32)) (broadcastInDim S1600000x1 ![0] bcast_S1600000_S1600000x1_0 a2)
      (Host.gather gather_S100000x128_S1600000x1_S1600000x128_1_0_n_n_0_1_1128 (maximumf (addf (Host.dotGeneral
      dot_S100000x128_S128x128_S100000x128_1_0_0_1_n_n none (Host.scatterAdd
      scatter_S100000x128_S1600000x1_S1600000x128_1_0_0_1 (broadcastInDim S100000x128 ![] bcast_S_S100000x128
      (constant S_ .f32 0x00000000#32)) (broadcastInDim S1600000x1 ![0] bcast_S1600000_S1600000x1_0 a2)
      (Host.gather gather_S100000x128_S1600000x1_S1600000x128_1_0_n_n_0_1_1128 (maximumf (addf (Host.dotGeneral
      dot_S100000x128_S128x128_S100000x128_1_0_0_1_n_n none (Host.scatterAdd
      scatter_S100000x128_S1600000x1_S1600000x128_1_0_0_1 (broadcastInDim S100000x128 ![] bcast_S_S100000x128
      (constant S_ .f32 0x00000000#32)) (broadcastInDim S1600000x1 ![0] bcast_S1600000_S1600000x1_0 a2)
      (Host.gather gather_S100000x128_S1600000x1_S1600000x128_1_0_n_n_0_1_1128 a0 (broadcastInDim S1600000x1
      ![0] bcast_S1600000_S1600000x1_0 (select (cmpi .slt a1 (broadcastInDim S1600000 ![] bcast_S_S1600000
      (constantI S_ 32 0#32))) (addi a1 (broadcastInDim S1600000 ![] bcast_S_S1600000 (constantI S_ 32
      100000#32))) a1)))) a3) (broadcastInDim S100000x128 ![0, 1] bcast_S1x128_S100000x128_0_1 (broadcastInDim
      S1x128 ![1] bcast_S128_S1x128_1 a4))) (broadcastInDim S100000x128 ![] bcast_S_S100000x128 (constant S_
      .f32 0x00000000#32))) (broadcastInDim S1600000x1 ![0] bcast_S1600000_S1600000x1_0 (select (cmpi .slt a1
      (broadcastInDim S1600000 ![] bcast_S_S1600000 (constantI S_ 32 0#32))) (addi a1 (broadcastInDim S1600000
      ![] bcast_S_S1600000 (constantI S_ 32 100000#32))) a1)))) a5) (broadcastInDim S100000x128 ![0, 1]
      bcast_S1x128_S100000x128_0_1 (broadcastInDim S1x128 ![1] bcast_S128_S1x128_1 a6))) (broadcastInDim
      S100000x128 ![] bcast_S_S100000x128 (constant S_ .f32 0x00000000#32))) (broadcastInDim S1600000x1 ![0]
      bcast_S1600000_S1600000x1_0 (select (cmpi .slt a1 (broadcastInDim S1600000 ![] bcast_S_S1600000 (constantI
      S_ 32 0#32))) (addi a1 (broadcastInDim S1600000 ![] bcast_S_S1600000 (constantI S_ 32 100000#32))) a1))))
      a7) (broadcastInDim S100000x64 ![0, 1] bcast_S1x64_S100000x64_0_1 (broadcastInDim S1x64 ![1]
      bcast_S64_S1x64_1 a8))) (broadcastInDim S100000x64 ![] bcast_S_S100000x64 (constant S_ .f32
      0x00000000#32))
      = Cert.Sage.out a0 a1 a2 a3 a4 a5 a6 a7 a8 := by
  rw [layer_eq dot_S100000x128_S128x128_S100000x128_1_0_0_1_n_n dot128_eq bcast_S128_S1x128_1
      bcast_S1x128_S100000x128_0_1 bcast_S_S100000x128 a0 a1 a2 a3 a4,
    layer_eq dot_S100000x128_S128x128_S100000x128_1_0_0_1_n_n dot128_eq bcast_S128_S1x128_1
      bcast_S1x128_S100000x128_0_1 bcast_S_S100000x128 (Cert.Sage.round a0 a1 a2 a3 a4) a1 a2 a5 a6,
    layer_eq dot_S100000x128_S128x64_S100000x64_1_0_0_1_n_n dot64_eq bcast_S64_S1x64_1
      bcast_S1x64_S100000x64_0_1 bcast_S_S100000x64
      (Cert.Sage.round (Cert.Sage.round a0 a1 a2 a3 a4) a1 a2 a5 a6) a1 a2 a7 a8]
  rfl

/-- On every device, from any memory with zero counters: every weakly fair execution of the reference program
terminates with its result buffer at the specification's output of the arguments' launch contents, the arguments
unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44)
        = Cert.Sage.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (result_eq _ _ _ _ _ _ _ _ _), (h c).2⟩)
    (Cert.ReferenceIdeal.Value.run (F := Ideal) m ρ)

end Cert.ReferenceIdeal.RefValue

end
-- ==== Proof.LibFiniteAll.lean ====
/-
  `all (|a| < +inf)` at the ideal values: every entry of `a` is a real number.

  At the ideal values an entry of a float array is an extended real, `|a|` is `max a (-a)` and the f32 word
  `0x7F800000` is `+inf`.  So `|a| < +inf` excludes exactly the two infinities, and what is left is a real number.
  A reduction by `and` from `true` over all axes is `true` only if every entry is, which gives the statement for a
  whole array of any shape (`all_real`), in the form a precondition "every float input is finite" prints it: the
  comparison of `abs a` against the scalar `0x7F800000` broadcast to `a`'s shape, reduced to a rank-0 result.
-/
import Idealize.ShloMosaic.PureOps.Ideal
import Idealize.ShloMosaic.Lib.ReduceAll
import Idealize.ShloMosaic.Lib.ValueIdx
import Idealize.ShloMosaic.Lib.Pipeline.Value

noncomputable section

namespace Idealize.ShloMosaic.FiniteAll

open Idealize.ShloMosaic

/-- The word `0x7F800000` denotes `+inf`. -/
theorem inf_word : Ideal.ofBits .f32 0x7F800000#32 = ⊤ := by
  simp [Ideal.ofBits, Ideal.ieee]

/-- An extended real whose absolute value is below `+inf` is a real number. -/
theorem real_of_abs_lt_inf (x : EReal)
    (h : Ideal.cmp .olt (max x (-x)) (Ideal.ofBits .f32 0x7F800000#32) = 1#1) : ∃ r : ℝ, x = r := by
  rw [inf_word] at h
  induction x using EReal.rec with
  | bot => simp [Ideal.cmp] at h
  | coe r => exact ⟨r, rfl⟩
  | top => simp [Ideal.cmp] at h

/-- A rank-0 array has one index. -/
instance subsingleton_idx0 : Subsingleton (⟨0, ![]⟩ : Shape).Idx := ⟨fun _ _ => funext fun d => d.elim0⟩

/-- One array: if `all (|a| < +inf)` is `true` then every entry of `a` is a real number. -/
theorem all_real {s : Shape} {axes : List (Fin s.rank)} (a : FVec Ideal s .f32)
    (bc : (⟨0, ![]⟩ : Shape).BroadcastsInDim s (![] : Fin 0 → Fin s.rank)) (hr : s.ReducesTo axes ⟨0, ![]⟩)
    (hu : 0 < (⟨0, ![]⟩ : Shape).numel) (init : IVec ⟨0, ![]⟩ 1)
    (e : Host.reduce IntOp.andi
          (cmpf .olt (Host.absf a) (broadcastInDim s ![] bc (constant ⟨0, ![]⟩ .f32 0x7F800000#32)))
          init hr hu ValueIdx.ix0 = 1#1)
    (i : s.Idx) : ∃ r : ℝ, a i = r := by
  have h := Host.reduce_andi_all _ init hr hu ValueIdx.ix0 e i
  refine real_of_abs_lt_inf (a i) ?_
  have hb : broadcastInDim s ![] bc (constant (F := Ideal) ⟨0, ![]⟩ .f32 0x7F800000#32) i
      = Ideal.ofBits .f32 0x7F800000#32 :=
    broadcastInDim_apply _ bc _ i ValueIdx.ix0 (fun a => a.elim0)
  rw [← hb]
  exact h

end Idealize.ShloMosaic.FiniteAll

end
-- ==== Proof.FiniteInputs.lean ====
/-
  From "every float input is finite" to "every entry of every float argument is a real number".

  The precondition is a rank-0 truth value: the conjunction, over the seven float arguments a, of all (|a| < +inf) —
  the comparison of abs a against the word 0x7F800000 broadcast to a's shape, reduced by and over all axes from true.
  The two integer arguments (the edges' sources and targets) carry no check.  Read at its one index the precondition
  is a six-fold and of seven one-bit words; an and of one-bit words is 1 exactly when both are, so each of the seven
  reductions is 1, and a reduction of this form that is 1 says every entry of its array is a real number at the ideal
  values (an extended real whose absolute value is below +inf is neither infinity).
-/
import Idealize.ShloMosaic.PureOps.Ideal
import Idealize.ShloMosaic.Lib.Affine
import Idealize.ShloMosaic.Lib.ValueIdx
import proofs.«155384_j13039520710795_2_alg».proof.Pre_finite_inputs
import proofs.«155384_j13039520710795_2_alg».proof.Proof.LibFiniteAll
import proofs.«155384_j13039520710795_2_alg».proof.Proof.LibEdgeSum

noncomputable section

namespace Cert.FiniteInputs

open Idealize.ShloMosaic Idealize.ShloMosaic.EdgeSum Cert.Pre_finite_inputs

/-- If the finiteness precondition holds of the nine arguments, every entry of each of the seven float arguments is a
real number: split the and of the seven checks, and read each check entry by entry. -/
theorem reals_of_pre [Cert.Pre_finite_inputs.Facts]
    (a0 : FVec Ideal S100000x128 .f32) (a1 : IVec S1600000 32) (a2 : IVec S1600000 32)
    (a3 : FVec Ideal S128x128 .f32) (a4 : FVec Ideal S128 .f32) (a5 : FVec Ideal S128x128 .f32)
    (a6 : FVec Ideal S128 .f32) (a7 : FVec Ideal S128x64 .f32) (a8 : FVec Ideal S64 .f32)
    (h : Cert.Pre_finite_inputs.fn (F := Ideal) a0 a1 a2 a3 a4 a5 a6 a7 a8 = fun _ => 1#1) :
    IsReal a0 ∧ IsReal a3 ∧ IsReal a4 ∧ IsReal a5 ∧ IsReal a6 ∧ IsReal a7 ∧ IsReal a8 := by
  have h0 := congrFun h ValueIdx.ix0
  dsimp only [Cert.Pre_finite_inputs.fn, Cert.Pre_finite_inputs.fn_part1, andi] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨FiniteAll.all_real a0 _ _ _ _ e0, FiniteAll.all_real a3 _ _ _ _ e3, FiniteAll.all_real a4 _ _ _ _ e4,
    FiniteAll.all_real a5 _ _ _ _ e5, FiniteAll.all_real a6 _ _ _ _ e6, FiniteAll.all_real a7 _ _ _ _ e7,
    FiniteAll.all_real a8 _ _ _ _ e8⟩

end Cert.FiniteInputs

end
-- ==== Proof.lean ====
/-
  Three rounds of "sum the neighbours' rows, apply a dense layer with a ReLU": the kernel and the reference agree.

  Both programs take node rows [100000, 128], the sources and targets of 1600000 edges as 32-bit words, and three
  weight matrices with their biases, of output widths 128, 128 and 64.  One round maps an array h of node rows to

      max ((∑ over the edges e into n of h (source of e)) · w + b) 0

  and the result is three rounds (the specification's out).  The reference computes exactly this: per round a gather
  of the rows at the sources, a scatter-add into zeros at the targets, a plain product, the bias spread over the rows
  and a maximum with zero.

  The kernel differs in two ways.  It first lists the edges in the order of their targets, so that each node's edges
  are consecutive; a node's neighbour sum is a finite sum over the edges, and a bijection of the edge numbers does not
  change it (addition of extended reals is commutative and associative).  And in the third round it multiplies the
  rows by the weight matrix before summing over the neighbours, since the 64-wide rows are shorter than the 128-wide
  ones: summing and then multiplying is multiplying and then summing by distributivity and an exchange of two finite
  sums.  Distributivity fails at the infinities, so this step needs every entry to be a real number — which is what
  the precondition, every float input finite, provides: each check |a| < +inf excludes the two infinities.

  At the ideal values both programs therefore end with the specification's output of the same arguments, which is
  the algebraic claim; the kernel's result as a term of its arguments is read off its run, region by region.  The
  three frame claims are the generated frames of the two kernels and the reference's run with its result dropped; the
  idealization rewrote no operation, so its claim is trivial.
-/
import proofs.«155384_j13039520710795_2_alg».proof.Defs
import proofs.«155384_j13039520710795_2_alg».proof.Proof.Gen.Kernel
import proofs.«155384_j13039520710795_2_alg».proof.Proof.Gen.Kernel.Skeleton
import proofs.«155384_j13039520710795_2_alg».proof.Proof.Gen.Kernel.Launch
import proofs.«155384_j13039520710795_2_alg».proof.Proof.Gen.Kernel.Points
import proofs.«155384_j13039520710795_2_alg».proof.Proof.Gen.Kernel.Frame
import proofs.«155384_j13039520710795_2_alg».proof.Proof.Gen.KernelIdeal
import proofs.«155384_j13039520710795_2_alg».proof.Proof.Gen.KernelIdeal.Skeleton
import proofs.«155384_j13039520710795_2_alg».proof.Proof.Gen.KernelIdeal.Launch
import proofs.«155384_j13039520710795_2_alg».proof.Proof.Gen.KernelIdeal.Points
import proofs.«155384_j13039520710795_2_alg».proof.Proof.Gen.KernelIdeal.Frame
import proofs.«155384_j13039520710795_2_alg».proof.Proof.Gen.ReferenceIdeal
import proofs.«155384_j13039520710795_2_alg».proof.Proof.Gen.Pre_finite_inputs
import proofs.«155384_j13039520710795_2_alg».proof.Proof.Gen.ReferenceIdeal.Run
import proofs.«155384_j13039520710795_2_alg».proof.Proof.KernelRun
import proofs.«155384_j13039520710795_2_alg».proof.Proof.KernelValue
import proofs.«155384_j13039520710795_2_alg».proof.Proof.KernelSpec
import proofs.«155384_j13039520710795_2_alg».proof.Proof.RefValue
import proofs.«155384_j13039520710795_2_alg».proof.Proof.FiniteInputs
import Idealize.ShloMosaic.Adequacy
import Idealize.ShloMosaic.Init

noncomputable section

namespace Cert.Proof

open Idealize.ShloMosaic Idealize.ShloMosaic.TcCoe Idealize.SL.Sem

/-- The kernel runs and leaves its arguments unchanged: the generated frame. -/
theorem frame_p : Cert.frame_Kernel := fun m ρ _ => Cert.Kernel.Gen.frame m ρ

/-- The idealized kernel runs and leaves its arguments unchanged: the generated frame. -/
theorem frame_pi : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.RefValue.run m ρ)

/-- The idealized kernel's run, with its result stated as the specification: the result array holds the kernel's
term of the arguments, and over finite arguments (every entry a real number, by the precondition) that term is the
specification's output. -/
theorem kernel_run (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
      r.2.mem ((c.tc : Thread Cert.KernelIdeal.nD Cert.KernelIdeal.τ).loc Cert.KernelIdeal.main_v51)
        = Cert.Sage.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
            (m ((c.tc : Thread Cert.KernelIdeal.nD Cert.KernelIdeal.τ).loc Cert.KernelIdeal.main_arg2)) (m ((c.tc : Thread Cert.KernelIdeal.nD Cert.KernelIdeal.τ).loc Cert.KernelIdeal.main_arg3))
            (m ((c.tc : Thread Cert.KernelIdeal.nD Cert.KernelIdeal.τ).loc Cert.KernelIdeal.main_arg4)) (m ((c.tc : Thread Cert.KernelIdeal.nD Cert.KernelIdeal.τ).loc Cert.KernelIdeal.main_arg5))
            (m ((c.tc : Thread Cert.KernelIdeal.nD Cert.KernelIdeal.τ).loc Cert.KernelIdeal.main_arg6)) (m ((c.tc : Thread Cert.KernelIdeal.nD Cert.KernelIdeal.τ).loc Cert.KernelIdeal.main_arg7))
            (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono (fun r h c =>
      have hr := Cert.FiniteInputs.reals_of_pre _ _ _ _ _ _ _ _ _ (hpre c)
      ⟨(h c).1.trans ((Cert.KernelIdeal.Named.result_eq m ρ c).trans
          (Cert.KernelIdeal.Named.kout_eq_out _ _ _ _ _ _ _ _ _ hr.1 hr.2.1 hr.2.2.1 hr.2.2.2.1 hr.2.2.2.2.1
            hr.2.2.2.2.2.1)),
        (h c).2⟩)
    (Cert.KernelIdeal.Named.run_result (F := Ideal) m ρ)

/-- At the ideal values, from memories that agree on the arguments, both programs end with the specification's
output of the kernel's arguments: the kernel by its run above, the reference by its run, read at arguments equal to
the kernel's. -/
theorem algebraic : Cert.algebraic_KernelIdeal_ReferenceIdeal := by
  intro m ρ m' ρ' hpre hagree
  refine ⟨fun c => Cert.Sage.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    kernel_run m ρ hpre, ?_⟩
  refine (θ_run Cert.ReferenceIdeal.defs _ _).mono (fun r h c => ⟨(h c).1.trans ?_, (h c).2⟩)
    (Cert.ReferenceIdeal.RefValue.run m' ρ')
  obtain ⟨e0, e1, e2, e3, e4, e5, e6, e7, e8⟩ := hagree c
  rw [e0, e1, e2, e3, e4, e5, e6, e7, e8]

theorem claim : Cert.Claim := ⟨Cert.Kernel.Gen.facts, Cert.KernelIdeal.Gen.facts, Cert.ReferenceIdeal.Gen.facts,
  Cert.Pre_finite_inputs.Gen.facts, frame_p, frame_pi, frame_ri, trivial, algebraic⟩

end Cert.Proof

end
